-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x64 : Shape := ⟨2, ![10000, 64]⟩
abbrev S400x64 : Shape := ⟨2, ![400, 64]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S1x64, .f32⟩
  | .local _ .vmem, ⟨5, _⟩ => ⟨S64x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x64, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let c1_i32 : BitVec 32 := 1#32
  let v2 : BitVec 32 := Scalar.subi arg1 c1_i32
  let c24_i32 : BitVec 32 := 24#32
  let v3 : BitVec 32 := Scalar.select v1 c24_i32 v2
  let v4 : BitVec 32 := Scalar.select v0 arg1 v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let c1_i32 : BitVec 32 := 1#32
  let v2 : BitVec 32 := Scalar.subi arg1 c1_i32
  let c24_i32 : BitVec 32 := 24#32
  let v3 : BitVec 32 := Scalar.select v1 c24_i32 v2
  let v4 : BitVec 32 := Scalar.select v0 arg1 v3
  let c0_i32_1 : BitVec 32 := 0#32
  let c0_i32_2 : BitVec 32 := 0#32
  ![v4.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000x16, .f32⟩
  | .hbm, ⟨21, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BBase.lean ====
/-
  The three branches of the kernel body are decided by the grid point alone: the first projection is computed at
  the first point only, the hidden layer's rows during the first sweep over the row blocks, the output rows
  during the second sweep. This module states those conditions in closed form over the fifty grid points and
  names the buffers the body is called with.
-/
import proofs.«133281_g11046655885806_week1_w3_820_16_alg».proof.Proof.Gen.Kernel.Frame
import proofs.«133281_g11046655885806_week1_w3_820_16_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The first projection (x times W1) is computed exactly at the first grid point. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The first sweep (the hidden layer's rows, block by block) is the first twenty-five points. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The second sweep (the output rows) is the last twenty-five points. -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-- During the first sweep the row block stored into the second scratch starts at row 400 times the block number. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The block of the adjacency (and of the output) a point works on: the block's own number during the first sweep,
    and during the second sweep the last block first, then the others in order. -/
def rowBlock (n : ℕ) : ℕ := if n < 25 then n else if n = 25 then 24 else n - 26

theorem index1_eq : ∀ t : Fin cfg0.N, (cfg0.win 1).index t = ![rowBlock t.val, 0] :=
  (by decide +kernel : ∀ t : Fin grid0.N, win0_1.index t = ![rowBlock t.val, 0])
theorem index6_eq : ∀ t : Fin cfg0.N, (cfg0.win 6).index t = ![rowBlock t.val, 0] :=
  (by decide +kernel : ∀ t : Fin grid0.N, win0_6.index t = ![rowBlock t.val, 0])

/-- Each window's current staging buffer at a point, as the pipeline passes it to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
/-- The two scratch buffers: the first projection, and the hidden layer projected. -/
abbrev scM0 : Memref sig .tc .vmem S10000x64 .f32 := Memref.whole cc0_scratch0
abbrev scM1 : Memref sig .tc .vmem S10000x16 .f32 := Memref.whole cc0_scratch1

/-- What the region lends the body beside the windows: the two scratch buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Body

end
-- ==== Proof.BRunA.lean ====
/-
  The kernel body run once, at a grid point of one of its three kinds: which buffers it reads, and which
  rectangles of which buffers it stores into, with what.
-/
import proofs.«133281_g11046655885806_week1_w3_820_16_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The body at a point of kind A: every buffer it only reads is handed back as found, and each buffer it stores
    into ends with the listed pieces written over what it held. -/
noncomputable def kernelRunA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) :
    Σ' (LS0 : List (View.Piece (Elt F) S10000x64 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    · iexists _; iexact H8

end Cert.Kernel.Body

end
-- ==== Proof.BRunB.lean ====
/-
  The kernel body run once, at a grid point of one of its three kinds: which buffers it reads, and which
  rectangles of which buffers it stores into, with what.
-/
import proofs.«133281_g11046655885806_week1_w3_820_16_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The body at a point of kind B: every buffer it only reads is handed back as found, and each buffer it stores
    into ends with the listed pieces written over what it held. -/
noncomputable def kernelRunB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) :
    { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    · iexact H8

end Cert.Kernel.Body

end
-- ==== Proof.BRunC.lean ====
/-
  The kernel body run once, at a grid point of one of its three kinds: which buffers it reads, and which
  rectangles of which buffers it stores into, with what.
-/
import proofs.«133281_g11046655885806_week1_w3_820_16_alg».proof.Proof.BBase

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 4000000 in
/-- The body at a point of kind C: every buffer it only reads is handed back as found, and each buffer it stores
    into ends with the listed pieces written over what it held. -/
noncomputable def kernelRunC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : ¬cond2 i) (hc3 : cond3 i)
    (x0 : Vec F S10000x128 .f32) (x1 : Vec F S400x10000 .f32) (x2 : Vec F S128x64 .f32) (x3 : Vec F S1x64 .f32) (x4 : Vec F S64x16 .f32) (x5 : Vec F S1x16 .f32) (xs0 : Vec F S10000x64 .f32) (xs1 : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    · iexists _; isplitr; · ipureintro; exact harg10.read_unread _
      iexact H8

end Cert.Kernel.Body

end
-- ==== Proof.BPieces.lean ====
/-
  What each kind of grid point leaves in the buffers it stores into, read back as plain functions: the first
  projection, a block of four hundred rows of the projected hidden layer, a block of four hundred output rows.
-/
import proofs.«133281_g11046655885806_week1_w3_820_16_alg».proof.Proof.BRunA
import proofs.«133281_g11046655885806_week1_w3_820_16_alg».proof.Proof.BRunB
import proofs.«133281_g11046655885806_week1_w3_820_16_alg».proof.Proof.BRunC
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A point of the second sweep leaves in the output's staging buffer the block of output rows computed from the
    adjacency block, the whole second scratch and the second bias. -/
theorem outC_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : ¬cond2 i) (hc3 : cond3 i) (x0 : Vec F S10000x128 .f32) (x1 : Vec F S400x10000 .f32) (x2 : Vec F S128x64 .f32) (x3 : Vec F S1x64 .f32) (x4 : Vec F S64x16 .f32) (x5 : Vec F S1x16 .f32) (xs0 : Vec F S10000x64 .f32) (xs1 : Vec F S10000x16 .f32) (f : arg8.view.ty.Contents (Elt F)) :
    arg8.view.read (Elt F) (arg8.view.writes (Elt F) f (kernelRunC c i arg2 harg2 arg3 harg3 arg4 harg4 arg5 harg5 arg6 harg6 arg7 harg7 arg8 harg8 arg9 harg9 arg10 harg10 hc1 hc2 hc3 x0 x1 x2 x3 x4 x5 xs0 xs1).1) = k0_pay3 x1 xs1 x5 := by
  unfold kernelRunC; dsimp only
  rw [View.read_writes_eq_canon _ _ _ (fun y => ⟨_, List.mem_singleton_self _, View.mem_set_unit_zero hz2 inb_S400x16_S400x16_0_0 y⟩)]
  rw [View.canon_unit_zero hz2]
  simp only [View.readAt_eq_ld, harg3.read_unread, harg10.read_unread, harg7.read_unread,
    View.ld_unit_zero (S := S400x10000) hz2, View.ld_unit_zero (S := S10000x16) hz2, View.ld_unit_zero (S := S1x16) hz2]

/-- A later point of the first sweep stores, into the rows of its block of the second scratch, the block of the
    projected hidden layer computed from the adjacency block, the first scratch, the first bias and the second weight; -/
theorem scrB_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) (o : ℕ) (hoff : k0_off1 i = ![o, 0])
    (y : S10000x16.Idx) (x : S400x16.Idx) (hx0 : (y (0 : Fin 2)).val = o + (x (0 : Fin 2)).val) (hx1 : (y (1 : Fin 2)).val = (x (1 : Fin 2)).val) :
    arg10.view.read (Elt F) (arg10.view.writes (Elt F) (harg10.unread xs1) (kernelRunB c i arg2 harg2 arg3 harg3 arg4 harg4 arg5 harg5 arg6 harg6 arg7 harg7 arg8 harg8 arg9 harg9 arg10 harg10 hc1 hc2 hc3 x0 x1 x2 x3 x4 x5 x6 xs0 xs1).1) y = k0_pay2 x1 xs0 x3 x4 x := by
  unfold kernelRunB; dsimp only
  refine (View.read_writes_cons_rows_of_mem arg10.view (harg10.unread xs1) (k0_off1_inb i hc2) _ [] y x hoff hx0 hx1).trans ?_
  simp only [View.readAt_eq_ld, harg3.read_unread, harg9.read_unread, harg5.read_unread, harg6.read_unread,
    View.ld_unit_zero (S := S400x10000) hz2, View.ld_unit_zero (S := S10000x64) hz2, View.ld_unit_zero (S := S1x64) hz2, View.ld_unit_zero (S := S64x16) hz2]

/-- and leaves every other row of the second scratch as it found it. -/
theorem scrB_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) (o : ℕ) (hoff : k0_off1 i = ![o, 0])
    (y : S10000x16.Idx) (h : (y (0 : Fin 2)).val < o ∨ o + 400 ≤ (y (0 : Fin 2)).val) :
    arg10.view.read (Elt F) (arg10.view.writes (Elt F) (harg10.unread xs1) (kernelRunB c i arg2 harg2 arg3 harg3 arg4 harg4 arg5 harg5 arg6 harg6 arg7 harg7 arg8 harg8 arg9 harg9 arg10 harg10 hc1 hc2 hc3 x0 x1 x2 x3 x4 x5 x6 xs0 xs1).1) y = xs1 y := by
  unfold kernelRunB; dsimp only
  refine (View.read_writes_cons_rows_of_not_mem arg10.view (harg10.unread xs1) (k0_off1_inb i hc2) _ [] y hoff rfl h).trans ?_
  rw [View.writes_nil, harg10.read_unread]

/-- The first point fills the first scratch with the first projection, -/
theorem scr0A_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (f : arg9.view.ty.Contents (Elt F)) :
    arg9.view.read (Elt F) (arg9.view.writes (Elt F) f (kernelRunA c i arg2 harg2 arg3 harg3 arg4 harg4 arg5 harg5 arg6 harg6 arg7 harg7 arg8 harg8 arg9 harg9 arg10 harg10 hc1 hc2 hc3 x0 x1 x2 x3 x4 x5 x6).1) = k0_pay1 x0 x2 := by
  unfold kernelRunA; dsimp only; sl_unfold_run_names
  rw [View.read_writes_eq_canon _ _ _ (fun y => ⟨_, List.mem_singleton_self _, View.mem_set_unit_zero hz2 inb_S10000x64_S10000x64_0_0 y⟩)]
  rw [View.canon_unit_zero hz2]
  simp only [View.readAt_eq_ld, harg2.read_unread, harg4.read_unread,
    View.ld_unit_zero (S := S10000x128) hz2, View.ld_unit_zero (S := S128x64) hz2]

/-- A whole buffer stored once and loaded back reads what was stored. -/
theorem readCov_whole (arg9 : Memref sig .tc .vmem S10000x64 .f32) (w : S10000x64.Idx → Elt F .f32) :
    arg9.view.readCov [⟨Rect.unit ![0, 0] ![10000, 64] inb_S10000x64_S10000x64_0_0, w⟩]
      (Rect.unit ![0, 0] ![10000, 64] inb_S10000x64_S10000x64_0_0).toLoadRect = w :=
  View.readCov_unit_zero (S := S10000x64) arg9.view hz2 inb_S10000x64_S10000x64_0_0 w

/-- and stores into the first block of rows of the second scratch the first block of the projected hidden layer,
    computed from the first projection it has just stored. -/
theorem scr1A_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (f : arg10.view.ty.Contents (Elt F)) (o : ℕ) (hoff : k0_off1 i = ![o, 0])
    (y : S10000x16.Idx) (x : S400x16.Idx) (hx0 : (y (0 : Fin 2)).val = o + (x (0 : Fin 2)).val) (hx1 : (y (1 : Fin 2)).val = (x (1 : Fin 2)).val) :
    arg10.view.read (Elt F) (arg10.view.writes (Elt F) f (kernelRunA c i arg2 harg2 arg3 harg3 arg4 harg4 arg5 harg5 arg6 harg6 arg7 harg7 arg8 harg8 arg9 harg9 arg10 harg10 hc1 hc2 hc3 x0 x1 x2 x3 x4 x5 x6).2.1) y = k0_pay2 x1 (k0_pay1 x0 x2) x3 x4 x := by
  unfold kernelRunA; dsimp only; sl_unfold_run_names
  refine (View.read_writes_cons_rows_of_mem arg10.view f (k0_off1_inb i hc2) _ [] y x hoff hx0 hx1).trans ?_
  simp only [View.readAt_eq_ld, harg3.read_unread, harg2.read_unread, harg4.read_unread, harg5.read_unread, harg6.read_unread,
    View.ld_unit_zero (S := S400x10000) hz2, View.ld_unit_zero (S := S10000x128) hz2, View.ld_unit_zero (S := S128x64) hz2, View.ld_unit_zero (S := S1x64) hz2, View.ld_unit_zero (S := S64x16) hz2]
  rw [readCov_whole arg9]

end Cert.Kernel.Body

end
-- ==== Proof.BBody.lean ====
/-
  The run of the whole pipeline. Between grid points the kernel keeps two things in its scratch buffers: the first
  projection (the features times the first weight), complete after the first point, and the projected hidden layer,
  of which each point of the first sweep fills one block of four hundred rows. The second sweep reads both and
  stores each block of output rows. During the first sweep the output's staging buffer is written back untouched,
  so of what the output array holds then nothing is said; every block is written again during the second sweep.
-/
import proofs.«133281_g11046655885806_week1_w3_820_16_alg».proof.Proof.BPieces

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (Nat.succ_pos 49) (show cfg0.N = 50 from N_0).symm⟩

/-- The first projection: the features times the first weight. -/
def S1 (c : Dev nD) : Vec F S10000x64 .f32 := k0_pay1 (iblk m c 0 t0) (iblk m c 2 t0)

/-- The block of the projected hidden layer a point of the first sweep computes: the adjacency block times the
    first projection, plus the first bias, clamped at zero, times the second weight. -/
def H2blk (c : Dev nD) (u : Fin cfg0.N) : Vec F S400x16 .f32 := k0_pay2 (iblk m c 1 u) (S1 m c) (iblk m c 3 u) (iblk m c 4 u)

/-- Before point n the second scratch holds, in the rows of every block of the first sweep already visited, that block
    of the projected hidden layer. -/
def S2ok (c : Dev nD) (n : ℕ) (X : Vec F S10000x16 .f32) : Prop :=
  ∀ u : Fin cfg0.N, u.val < n → u.val < 25 → ∀ (y : S10000x16.Idx) (x : S400x16.Idx),
    (y (0 : Fin 2)).val = 400 * u.val + (x (0 : Fin 2)).val → (y (1 : Fin 2)).val = (x (1 : Fin 2)).val → X y = H2blk m c u x

theorem S2ok_mono (c : Dev nD) {n n' : ℕ} (X : Vec F S10000x16 .f32) (h : S2ok m c n X) (hn : 25 ≤ n ∨ n' ≤ n) : S2ok m c n' X :=
  fun u hu hu25 => h u (by omega) hu25

/-- What a point leaves in the output's staging buffer: during the second sweep, the block of output rows computed from
    the adjacency block, the complete projected hidden layer and the second bias; during the first sweep, anything. -/
def OutRel (c : Dev nD) (t : Fin cfg0.N) (X : Vec F S400x16 .f32) : Prop :=
  25 ≤ t.val → ∃ S, S2ok m c 25 S ∧ X = k0_pay3 (iblk m c 1 t) S (iblk m c 5 t)

/-- What the kernel carries between points: nothing named before the first point; afterwards the first scratch at the
    first projection and the second scratch at the blocks filled so far. -/
def PhiS (c : Dev nD) : ℕ → sProp 𝕄
  | 0 => Pipeline.ΦA spec0 c
  | n + 1 => iprop(iprop(owns (c : Thread nD τ) scM0 fullShare (S1 m c) ∗ (∃ X, ⌜S2ok m c (n + 1) X⌝ ∗ owns (c : Thread nD τ) scM1 fullShare X)) ∗ (∃ r, prngReg c r))

theorem PhiS_pos (c : Dev nD) (n : ℕ) (hn : n ≠ 0) :
    PhiS m c n = iprop(iprop(owns (c : Thread nD τ) scM0 fullShare (S1 m c) ∗ (∃ X, ⌜S2ok m c n X⌝ ∗ owns (c : Thread nD τ) scM1 fullShare X)) ∗ (∃ r, prngReg c r)) := by
  cases n with
  | zero => exact absurd rfl hn
  | succ n => rfl

/-- The proof data: the arrays as the region finds them; every input's buffer left as found; the output's buffer
    left at the block of output rows during the second sweep. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => OutRel m c t X
  Φ t := PhiS m c t.val
  q _ := fullShare
  owed _ := 0

/-- Input window 0's staging buffer holds its block of the argument array whenever the body is called. -/
theorem Y0_eq (c : Dev nD) (t : Fin cfg0.N) (Y : (cfg0.win 0).block.Idx → Elt F (cfg0.win 0).elt) (h : (rdat m c).Finds 0 t Y) :
    Y = iblk m c 0 t := by
  obtain ⟨d, hd⟩ := RDat.finds_in_eq_fetched (rdat m c) 0 rfl (fun _ _ _ => rfl) (fun _ _ _ h => h) t Y h
  rw [hd]; unfold RDat.fetched RDat.blockOf iblk; rfl
/-- Input window 1's staging buffer holds its block of the argument array whenever the body is called. -/
theorem Y1_eq (c : Dev nD) (t : Fin cfg0.N) (Y : (cfg0.win 1).block.Idx → Elt F (cfg0.win 1).elt) (h : (rdat m c).Finds 1 t Y) :
    Y = iblk m c 1 t := by
  obtain ⟨d, hd⟩ := RDat.finds_in_eq_fetched (rdat m c) 1 rfl (fun _ _ _ => rfl) (fun _ _ _ h => h) t Y h
  rw [hd]; unfold RDat.fetched RDat.blockOf iblk; rfl
/-- Input window 2's staging buffer holds its block of the argument array whenever the body is called. -/
theorem Y2_eq (c : Dev nD) (t : Fin cfg0.N) (Y : (cfg0.win 2).block.Idx → Elt F (cfg0.win 2).elt) (h : (rdat m c).Finds 2 t Y) :
    Y = iblk m c 2 t := by
  obtain ⟨d, hd⟩ := RDat.finds_in_eq_fetched (rdat m c) 2 rfl (fun _ _ _ => rfl) (fun _ _ _ h => h) t Y h
  rw [hd]; unfold RDat.fetched RDat.blockOf iblk; rfl
/-- Input window 3's staging buffer holds its block of the argument array whenever the body is called. -/
theorem Y3_eq (c : Dev nD) (t : Fin cfg0.N) (Y : (cfg0.win 3).block.Idx → Elt F (cfg0.win 3).elt) (h : (rdat m c).Finds 3 t Y) :
    Y = iblk m c 3 t := by
  obtain ⟨d, hd⟩ := RDat.finds_in_eq_fetched (rdat m c) 3 rfl (fun _ _ _ => rfl) (fun _ _ _ h => h) t Y h
  rw [hd]; unfold RDat.fetched RDat.blockOf iblk; rfl
/-- Input window 4's staging buffer holds its block of the argument array whenever the body is called. -/
theorem Y4_eq (c : Dev nD) (t : Fin cfg0.N) (Y : (cfg0.win 4).block.Idx → Elt F (cfg0.win 4).elt) (h : (rdat m c).Finds 4 t Y) :
    Y = iblk m c 4 t := by
  obtain ⟨d, hd⟩ := RDat.finds_in_eq_fetched (rdat m c) 4 rfl (fun _ _ _ => rfl) (fun _ _ _ h => h) t Y h
  rw [hd]; unfold RDat.fetched RDat.blockOf iblk; rfl
/-- Input window 5's staging buffer holds its block of the argument array whenever the body is called. -/
theorem Y5_eq (c : Dev nD) (t : Fin cfg0.N) (Y : (cfg0.win 5).block.Idx → Elt F (cfg0.win 5).elt) (h : (rdat m c).Finds 5 t Y) :
    Y = iblk m c 5 t := by
  obtain ⟨d, hd⟩ := RDat.finds_in_eq_fetched (rdat m c) 5 rfl (fun _ _ _ => rfl) (fun _ _ _ h => h) t Y h
  rw [hd]; unfold RDat.fetched RDat.blockOf iblk; rfl

set_option maxHeartbeats 4000000 in
/-- The body at any point, by the kind of the point. -/
theorem sound_body (c : Dev nD) (t : Fin cfg0.N) (y6 : Vec F S400x16 .f32) :
    iprop((rdat m c).Φ t.castSucc ∗ (rdat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare y6)
      ⊢ wp frame (wpE (defs₀ (F := F)) Variants.none c none) Set.univ (bodyAt0 t) (fun _ =>
        iprop((rdat m c).Φ t.succ ∗ (rdat m c).owesAt () t.succ
          ∗ (∃ X, ⌜X = iblk m c 0 t⌝ ∗ owns (c : Thread nD τ) (ms0 t) fullShare X)
          ∗ (∃ X, ⌜X = iblk m c 1 t⌝ ∗ owns (c : Thread nD τ) (ms1 t) fullShare X)
          ∗ (∃ X, ⌜X = iblk m c 2 t⌝ ∗ owns (c : Thread nD τ) (ms2 t) fullShare X)
          ∗ (∃ X, ⌜X = iblk m c 3 t⌝ ∗ owns (c : Thread nD τ) (ms3 t) fullShare X)
          ∗ (∃ X, ⌜X = iblk m c 4 t⌝ ∗ owns (c : Thread nD τ) (ms4 t) fullShare X)
          ∗ (∃ X, ⌜X = iblk m c 5 t⌝ ∗ owns (c : Thread nD τ) (ms5 t) fullShare X)
          ∗ (∃ X, ⌜OutRel m c t X⌝ ∗ owns (c : Thread nD τ) (ms6 t) fullShare X))) := by
  unfold bodyAt0
  rw [show (rdat m c).owesAt () t.succ = (rdat m c).owesAt () t.castSucc from rfl]
  rw [show (rdat m c).Φ t.succ = PhiS m c (t.val + 1) from rfl, show (rdat m c).Φ t.castSucc = PhiS m c t.val from rfl]
  rw [PhiS_pos m c (t.val + 1) (Nat.succ_ne_zero _)]
  have hN : t.val < 50 := lt_of_lt_of_eq t.isLt (show cfg0.N = 50 from N_0)
  by_cases hz : t.val = 0
  · -- the first point
    obtain rfl : t = t0 := Fin.ext hz
    have hc1 : cond1 (grid0.coords t0) := (hcond1 t0).mpr hz
    have hc2 : cond2 (grid0.coords t0) := (hcond2 t0).mpr (by omega)
    have hc3 : ¬cond3 (grid0.coords t0) := fun h => by have := (hcond3 t0).mp h; omega
    rw [show PhiS m c (t0 : Fin cfg0.N).val = Pipeline.ΦA spec0 c from rfl, PhiA_eq]
    iintro ⟨⟨⟨HS0, HS1⟩, Hg⟩, Ho, H0, H1, H2, H3, H4, H5, H6⟩
    iapply ((kernelRunA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%f9, HS0⟩, ⟨%f10, HS1⟩⟩
    isplitl [HS0 HS1 Hg]
    · isplitl [HS0 HS1]
      · isplitl [HS0]
        · unfold owns; iexists _; isplitr
          swap; · iexact HS0
          ipureintro
          exact scr0A_eq c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6 f9
        · iexists (scM1.view.read (Elt F) (scM1.view.writes (Elt F) f10 (kernelRunA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6).2.1)); isplitr
          · ipureintro
            intro u hu _ y x hy0 hy1
            obtain rfl : u = t0 := Fin.ext (by omega)
            exact scr1A_mem c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6 f10 (400 * (t0 : Fin cfg0.N).val) (off1_eq t0 (by omega)) y x hy0 hy1
          · unfold owns; iexists _; isplitr
            · ipureintro; rfl
            · iexact HS1
      · iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    · iexists y6; isplitr
      · ipureintro; intro h; omega
      · iexact H6
  · by_cases h25 : t.val < 25
    · -- a later point of the first sweep
      have hc1 : ¬cond1 (grid0.coords t) := fun h => hz ((hcond1 t).mp h)
      have hc2 : cond2 (grid0.coords t) := (hcond2 t).mpr h25
      have hc3 : ¬cond3 (grid0.coords t) := fun h => by have := (hcond3 t).mp h; omega
      rw [PhiS_pos m c t.val hz]
      iintro ⟨⟨⟨HS0, ⟨%X, %hX, HS1⟩⟩, Hg⟩, Ho, H0, H1, H2, H3, H4, H5, H6⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists (scM1.view.read (Elt F) (scM1.view.writes (Elt F) ((Memref.isWhole_whole cc0_scratch1).unread X) (kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X).1)); isplitr
          · ipureintro
            intro u hu hu25 y x hy0 hy1
            have hx : (x (0 : Fin 2)).val < 400 := (x (0 : Fin 2)).isLt
            by_cases hut : u.val = t.val
            · obtain rfl : u = t := Fin.ext hut
              exact scrB_mem c (grid0.coords u) (ms0 u) (hs0 u) (ms1 u) (hs1 u) (ms2 u) (hs2 u) (ms3 u) (hs3 u) (ms4 u) (hs4 u) (ms5 u) (hs5 u) (ms6 u) (hs6 u) scM0 (Memref.isWhole_whole _) scM1 (Memref.isWhole_whole _) hc1 hc2 hc3 (iblk m c 0 u) (iblk m c 1 u) (iblk m c 2 u) (iblk m c 3 u) (iblk m c 4 u) (iblk m c 5 u) y6 (S1 m c) X (400 * u.val) (off1_eq u h25) y x hy0 hy1
            · exact (scrB_not_mem c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X (400 * t.val) (off1_eq t h25) y (by omega)).trans
                (hX u (by omega) hu25 y x hy0 hy1)
          · unfold owns; iexists _; isplitr
            · ipureintro; rfl
            · iexact HS1
        · iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      · iexists y6; isplitr
        · ipureintro; intro h; omega
        · iexact H6
    · -- a point of the second sweep
      have hc1 : ¬cond1 (grid0.coords t) := fun h => hz ((hcond1 t).mp h)
      have hc2 : ¬cond2 (grid0.coords t) := fun h => h25 ((hcond2 t).mp h)
      have hc3 : cond3 (grid0.coords t) := (hcond3 t).mpr (by omega)
      rw [PhiS_pos m c t.val hz]
      iintro ⟨⟨⟨HS0, ⟨%X, %hX, HS1⟩⟩, Hg⟩, Ho, H0, H1, H2, H3, H4, H5, H6⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f8, H6⟩, HS0, HS1⟩
      isplitl [HS0 HS1 Hg]
      · isplitl [HS0 HS1]
        · isplitl [HS0]; · iexact HS0
          iexists X; isplitr
          · ipureintro; exact S2ok_mono m c X hX (.inl (by omega))
          · iexact HS1
        · iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      · iexists ((ms6 t).view.read (Elt F) ((ms6 t).view.writes (Elt F) f8 (kernelRunC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X).1)); isplitr
        · ipureintro; intro _
          exact ⟨X, S2ok_mono m c X hX (.inl (by omega)), outC_eq c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X f8⟩
        · unfold owns; iexists _; isplitr
          · ipureintro; rfl
          · iexact H6

/-- The body obligation at every point: each input's buffer holds its block, and the body runs as above. -/
theorem body_obligation (c : Dev nD) : (rdat (F := F) m c).BodyObligation (defs₀ (F := F)) Variants.none () Set.univ := fun t Y hY => by
  rw [bigSep_W0, bigSep_W0]
  have e0 := Y0_eq m c t (Y 0) (hY 0)
  have e1 := Y1_eq m c t (Y 1) (hY 1)
  have e2 := Y2_eq m c t (Y 2) (hY 2)
  have e3 := Y3_eq m c t (Y 3) (hY 3)
  have e4 := Y4_eq m c t (Y 4) (hY 4)
  have e5 := Y5_eq m c t (Y 5) (hY 5)
  rw [e0, e1, e2, e3, e4, e5]
  exact sound_body m c t (Y 6)

theorem hin (c : Dev nD) : Pipeline.ΦA spec0 c ⊢ (rdat m c).Φ 0 := Idealize.SL.BI.Entails.refl _

theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 50 := N_0; omega), PhiA_eq]
  iintro ⟨⟨HS0, ⟨%X, -, HS1⟩⟩, Hg⟩
  isplitl [HS0 HS1]
  · isplitl [HS0]
    · iexists _; iexact HS0
    · iexists _; iexact HS1
  iexact Hg

set_option backward.isDefEq.respectTransparency.types false in
/-- Every weakly fair execution terminates; the input arrays end as they began, the output array at contents the
    write-backs allow, every other buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hin := hin m) (hout := hout m)

/-- An input array is never written: it ends at what the region found. -/
theorem arr_in (c : Dev nD) (w : Fin cfg0.W) (hw : (cfg0.win w).isOut = false) (G : Buf (Elt F) ((cfg0.win w).arr.view.loc (c.tc : Thread nD τ)))
    (h : (rdat m c).ArrAt w cfg0.N G) : G = V m c (Pipeline.arrRef spec0 w) := by
  rw [(rdat m c).ArrAt_in w hw] at h; exact h

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.Kernel.Body

end
-- ==== Proof.IBase.lean ====
/-
  The three branches of the kernel body are decided by the grid point alone: the first projection is computed at
  the first point only, the hidden layer's rows during the first sweep over the row blocks, the output rows
  during the second sweep. This module states those conditions in closed form over the fifty grid points and
  names the buffers the body is called with.
-/
import proofs.«133281_g11046655885806_week1_w3_820_16_alg».proof.Proof.Gen.KernelIdeal.Frame
import proofs.«133281_g11046655885806_week1_w3_820_16_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The first projection (x times W1) is computed exactly at the first grid point. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcond1 : ∀ t : Fin cfg0.N, cond1 (grid0.coords t) ↔ t.val = 0 :=
  (by decide +kernel : ∀ t : Fin grid0.N, cond1 (grid0.coords t) ↔ t.val = 0)

/-- The first sweep (the hidden layer's rows, block by block) is the first twenty-five points. -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)

/-- The second sweep (the output rows) is the last twenty-five points. -/
abbrev cond3 (i : grid0.Coords) : Prop := k0_cond3 i = 1#1
theorem hcond3 : ∀ t : Fin cfg0.N, cond3 (grid0.coords t) ↔ 25 ≤ t.val :=
  (by decide +kernel : ∀ t : Fin grid0.N, cond3 (grid0.coords t) ↔ 25 ≤ t.val)

/-- During the first sweep the row block stored into the second scratch starts at row 400 times the block number. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The block of the adjacency (and of the output) a point works on: the block's own number during the first sweep,
    and during the second sweep the last block first, then the others in order. -/
def rowBlock (n : ℕ) : ℕ := if n < 25 then n else if n = 25 then 24 else n - 26

theorem index1_eq : ∀ t : Fin cfg0.N, (cfg0.win 1).index t = ![rowBlock t.val, 0] :=
  (by decide +kernel : ∀ t : Fin grid0.N, win0_1.index t = ![rowBlock t.val, 0])
theorem index6_eq : ∀ t : Fin cfg0.N, (cfg0.win 6).index t = ![rowBlock t.val, 0] :=
  (by decide +kernel : ∀ t : Fin grid0.N, win0_6.index t = ![rowBlock t.val, 0])

/-- Each window's current staging buffer at a point, as the pipeline passes it to the body. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
/-- The two scratch buffers: the first projection, and the hidden layer projected. -/
abbrev scM0 : Memref sig .tc .vmem S10000x64 .f32 := Memref.whole cc0_scratch0
abbrev scM1 : Memref sig .tc .vmem S10000x16 .f32 := Memref.whole cc0_scratch1

/-- What the region lends the body beside the windows: the two scratch buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Body

end
-- ==== Proof.IRunA.lean ====
/-
  The kernel body run once, at a grid point of one of its three kinds: which buffers it reads, and which
  rectangles of which buffers it stores into, with what.
-/
import proofs.«133281_g11046655885806_week1_w3_820_16_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of kind A: every buffer it only reads is handed back as found, and each buffer it stores
    into ends with the listed pieces written over what it held. -/
noncomputable def kernelRunA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) :
    Σ' (LS0 : List (View.Piece (Elt F) S10000x64 .f32)), { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    · iexists _; iexact H8

end Cert.KernelIdeal.Body

end
-- ==== Proof.IRunB.lean ====
/-
  The kernel body run once, at a grid point of one of its three kinds: which buffers it reads, and which
  rectangles of which buffers it stores into, with what.
-/
import proofs.«133281_g11046655885806_week1_w3_820_16_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of kind B: every buffer it only reads is handed back as found, and each buffer it stores
    into ends with the listed pieces written over what it held. -/
noncomputable def kernelRunB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i)
    (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) :
    { LS1 : List (View.Piece (Elt F) S10000x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    · iexact H8

end Cert.KernelIdeal.Body

end
-- ==== Proof.IRunC.lean ====
/-
  The kernel body run once, at a grid point of one of its three kinds: which buffers it reads, and which
  rectangles of which buffers it stores into, with what.
-/
import proofs.«133281_g11046655885806_week1_w3_820_16_alg».proof.Proof.IBase

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point of kind C: every buffer it only reads is handed back as found, and each buffer it stores
    into ends with the listed pieces written over what it held. -/
noncomputable def kernelRunC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : ¬cond2 i) (hc3 : cond3 i)
    (x0 : Vec F S10000x128 .f32) (x1 : Vec F S400x10000 .f32) (x2 : Vec F S128x64 .f32) (x3 : Vec F S1x64 .f32) (x4 : Vec F S64x16 .f32) (x5 : Vec F S1x16 .f32) (xs0 : Vec F S10000x64 .f32) (xs1 : Vec F S10000x16 .f32) :
    { L6 : List (View.Piece (Elt F) S400x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    · iexists _; isplitr; · ipureintro; exact harg10.read_unread _
      iexact H8

end Cert.KernelIdeal.Body

end
-- ==== Proof.IPieces.lean ====
/-
  What each kind of grid point leaves in the buffers it stores into, read back as plain functions: the first
  projection, a block of four hundred rows of the projected hidden layer, a block of four hundred output rows.
-/
import proofs.«133281_g11046655885806_week1_w3_820_16_alg».proof.Proof.IRunA
import proofs.«133281_g11046655885806_week1_w3_820_16_alg».proof.Proof.IRunB
import proofs.«133281_g11046655885806_week1_w3_820_16_alg».proof.Proof.IRunC
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A point of the second sweep leaves in the output's staging buffer the block of output rows computed from the
    adjacency block, the whole second scratch and the second bias. -/
theorem outC_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : ¬cond2 i) (hc3 : cond3 i) (x0 : Vec F S10000x128 .f32) (x1 : Vec F S400x10000 .f32) (x2 : Vec F S128x64 .f32) (x3 : Vec F S1x64 .f32) (x4 : Vec F S64x16 .f32) (x5 : Vec F S1x16 .f32) (xs0 : Vec F S10000x64 .f32) (xs1 : Vec F S10000x16 .f32) (f : arg8.view.ty.Contents (Elt F)) :
    arg8.view.read (Elt F) (arg8.view.writes (Elt F) f (kernelRunC c i arg2 harg2 arg3 harg3 arg4 harg4 arg5 harg5 arg6 harg6 arg7 harg7 arg8 harg8 arg9 harg9 arg10 harg10 hc1 hc2 hc3 x0 x1 x2 x3 x4 x5 xs0 xs1).1) = k0_pay3 x1 xs1 x5 := by
  unfold kernelRunC; dsimp only
  rw [View.read_writes_eq_canon _ _ _ (fun y => ⟨_, List.mem_singleton_self _, View.mem_set_unit_zero hz2 inb_S400x16_S400x16_0_0 y⟩)]
  rw [View.canon_unit_zero hz2]
  simp only [View.readAt_eq_ld, harg3.read_unread, harg10.read_unread, harg7.read_unread,
    View.ld_unit_zero (S := S400x10000) hz2, View.ld_unit_zero (S := S10000x16) hz2, View.ld_unit_zero (S := S1x16) hz2]

/-- A later point of the first sweep stores, into the rows of its block of the second scratch, the block of the
    projected hidden layer computed from the adjacency block, the first scratch, the first bias and the second weight; -/
theorem scrB_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) (o : ℕ) (hoff : k0_off1 i = ![o, 0])
    (y : S10000x16.Idx) (x : S400x16.Idx) (hx0 : (y (0 : Fin 2)).val = o + (x (0 : Fin 2)).val) (hx1 : (y (1 : Fin 2)).val = (x (1 : Fin 2)).val) :
    arg10.view.read (Elt F) (arg10.view.writes (Elt F) (harg10.unread xs1) (kernelRunB c i arg2 harg2 arg3 harg3 arg4 harg4 arg5 harg5 arg6 harg6 arg7 harg7 arg8 harg8 arg9 harg9 arg10 harg10 hc1 hc2 hc3 x0 x1 x2 x3 x4 x5 x6 xs0 xs1).1) y = k0_pay2 x1 xs0 x3 x4 x := by
  unfold kernelRunB; dsimp only
  refine (View.read_writes_cons_rows_of_mem arg10.view (harg10.unread xs1) (k0_off1_inb i hc2) _ [] y x hoff hx0 hx1).trans ?_
  simp only [View.readAt_eq_ld, harg3.read_unread, harg9.read_unread, harg5.read_unread, harg6.read_unread,
    View.ld_unit_zero (S := S400x10000) hz2, View.ld_unit_zero (S := S10000x64) hz2, View.ld_unit_zero (S := S1x64) hz2, View.ld_unit_zero (S := S64x16) hz2]

/-- and leaves every other row of the second scratch as it found it. -/
theorem scrB_not_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : ¬cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (xs0 : Vec F S10000x64 .f32) (xs1 : Vec F S10000x16 .f32) (o : ℕ) (hoff : k0_off1 i = ![o, 0])
    (y : S10000x16.Idx) (h : (y (0 : Fin 2)).val < o ∨ o + 400 ≤ (y (0 : Fin 2)).val) :
    arg10.view.read (Elt F) (arg10.view.writes (Elt F) (harg10.unread xs1) (kernelRunB c i arg2 harg2 arg3 harg3 arg4 harg4 arg5 harg5 arg6 harg6 arg7 harg7 arg8 harg8 arg9 harg9 arg10 harg10 hc1 hc2 hc3 x0 x1 x2 x3 x4 x5 x6 xs0 xs1).1) y = xs1 y := by
  unfold kernelRunB; dsimp only
  refine (View.read_writes_cons_rows_of_not_mem arg10.view (harg10.unread xs1) (k0_off1_inb i hc2) _ [] y hoff rfl h).trans ?_
  rw [View.writes_nil, harg10.read_unread]

/-- The first point fills the first scratch with the first projection, -/
theorem scr0A_eq (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (f : arg9.view.ty.Contents (Elt F)) :
    arg9.view.read (Elt F) (arg9.view.writes (Elt F) f (kernelRunA c i arg2 harg2 arg3 harg3 arg4 harg4 arg5 harg5 arg6 harg6 arg7 harg7 arg8 harg8 arg9 harg9 arg10 harg10 hc1 hc2 hc3 x0 x1 x2 x3 x4 x5 x6).1) = k0_pay1 x0 x2 := by
  unfold kernelRunA; dsimp only; sl_unfold_run_names
  rw [View.read_writes_eq_canon _ _ _ (fun y => ⟨_, List.mem_singleton_self _, View.mem_set_unit_zero hz2 inb_S10000x64_S10000x64_0_0 y⟩)]
  rw [View.canon_unit_zero hz2]
  simp only [View.readAt_eq_ld, harg2.read_unread, harg4.read_unread,
    View.ld_unit_zero (S := S10000x128) hz2, View.ld_unit_zero (S := S128x64) hz2]

/-- A whole buffer stored once and loaded back reads what was stored. -/
theorem readCov_whole (arg9 : Memref sig .tc .vmem S10000x64 .f32) (w : S10000x64.Idx → Elt F .f32) :
    arg9.view.readCov [⟨Rect.unit ![0, 0] ![10000, 64] inb_S10000x64_S10000x64_0_0, w⟩]
      (Rect.unit ![0, 0] ![10000, 64] inb_S10000x64_S10000x64_0_0).toLoadRect = w :=
  View.readCov_unit_zero (S := S10000x64) arg9.view hz2 inb_S10000x64_S10000x64_0_0 w

/-- and stores into the first block of rows of the second scratch the first block of the projected hidden layer,
    computed from the first projection it has just stored. -/
theorem scr1A_mem (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x64 .f32) (harg9 : arg9.IsWhole) (arg10 : Memref sig .tc .vmem S10000x16 .f32) (harg10 : arg10.IsWhole) (hc1 : cond1 i) (hc2 : cond2 i) (hc3 : ¬cond3 i) (x0 : Vec F S10000x128 .f32) (x1 : Vec F S400x10000 .f32) (x2 : Vec F S128x64 .f32) (x3 : Vec F S1x64 .f32) (x4 : Vec F S64x16 .f32) (x5 : Vec F S1x16 .f32) (x6 : Vec F S400x16 .f32) (f : arg10.view.ty.Contents (Elt F)) (o : ℕ) (hoff : k0_off1 i = ![o, 0])
    (y : S10000x16.Idx) (x : S400x16.Idx) (hx0 : (y (0 : Fin 2)).val = o + (x (0 : Fin 2)).val) (hx1 : (y (1 : Fin 2)).val = (x (1 : Fin 2)).val) :
    arg10.view.read (Elt F) (arg10.view.writes (Elt F) f (kernelRunA c i arg2 harg2 arg3 harg3 arg4 harg4 arg5 harg5 arg6 harg6 arg7 harg7 arg8 harg8 arg9 harg9 arg10 harg10 hc1 hc2 hc3 x0 x1 x2 x3 x4 x5 x6).2.1) y = k0_pay2 x1 (k0_pay1 x0 x2) x3 x4 x := by
  unfold kernelRunA; dsimp only; sl_unfold_run_names
  refine (View.read_writes_cons_rows_of_mem arg10.view f (k0_off1_inb i hc2) _ [] y x hoff hx0 hx1).trans ?_
  simp only [View.readAt_eq_ld, harg3.read_unread, harg2.read_unread, harg4.read_unread, harg5.read_unread, harg6.read_unread,
    View.ld_unit_zero (S := S400x10000) hz2, View.ld_unit_zero (S := S10000x128) hz2, View.ld_unit_zero (S := S128x64) hz2, View.ld_unit_zero (S := S1x64) hz2, View.ld_unit_zero (S := S64x16) hz2]
  rw [readCov_whole arg9]

end Cert.KernelIdeal.Body

end
-- ==== Proof.IBody.lean ====
/-
  The run of the whole pipeline. Between grid points the kernel keeps two things in its scratch buffers: the first
  projection (the features times the first weight), complete after the first point, and the projected hidden layer,
  of which each point of the first sweep fills one block of four hundred rows. The second sweep reads both and
  stores each block of output rows. During the first sweep the output's staging buffer is written back untouched,
  so of what the output array holds then nothing is said; every block is written again during the second sweep.
-/
import proofs.«133281_g11046655885806_week1_w3_820_16_alg».proof.Proof.IPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, lt_of_lt_of_eq (Nat.succ_pos 49) (show cfg0.N = 50 from N_0).symm⟩

/-- The first projection: the features times the first weight. -/
def S1 (c : Dev nD) : Vec F S10000x64 .f32 := k0_pay1 (iblk m c 0 t0) (iblk m c 2 t0)

/-- The block of the projected hidden layer a point of the first sweep computes: the adjacency block times the
    first projection, plus the first bias, clamped at zero, times the second weight. -/
def H2blk (c : Dev nD) (u : Fin cfg0.N) : Vec F S400x16 .f32 := k0_pay2 (iblk m c 1 u) (S1 m c) (iblk m c 3 u) (iblk m c 4 u)

/-- Before point n the second scratch holds, in the rows of every block of the first sweep already visited, that block
    of the projected hidden layer. -/
def S2ok (c : Dev nD) (n : ℕ) (X : Vec F S10000x16 .f32) : Prop :=
  ∀ u : Fin cfg0.N, u.val < n → u.val < 25 → ∀ (y : S10000x16.Idx) (x : S400x16.Idx),
    (y (0 : Fin 2)).val = 400 * u.val + (x (0 : Fin 2)).val → (y (1 : Fin 2)).val = (x (1 : Fin 2)).val → X y = H2blk m c u x

theorem S2ok_mono (c : Dev nD) {n n' : ℕ} (X : Vec F S10000x16 .f32) (h : S2ok m c n X) (hn : 25 ≤ n ∨ n' ≤ n) : S2ok m c n' X :=
  fun u hu hu25 => h u (by omega) hu25

/-- What a point leaves in the output's staging buffer: during the second sweep, the block of output rows computed from
    the adjacency block, the complete projected hidden layer and the second bias; during the first sweep, anything. -/
def OutRel (c : Dev nD) (t : Fin cfg0.N) (X : Vec F S400x16 .f32) : Prop :=
  25 ≤ t.val → ∃ S, S2ok m c 25 S ∧ X = k0_pay3 (iblk m c 1 t) S (iblk m c 5 t)

/-- What the kernel carries between points: nothing named before the first point; afterwards the first scratch at the
    first projection and the second scratch at the blocks filled so far. -/
def PhiS (c : Dev nD) : ℕ → sProp 𝕄
  | 0 => Pipeline.ΦA spec0 c
  | n + 1 => iprop(iprop(owns (c : Thread nD τ) scM0 fullShare (S1 m c) ∗ (∃ X, ⌜S2ok m c (n + 1) X⌝ ∗ owns (c : Thread nD τ) scM1 fullShare X)) ∗ (∃ r, prngReg c r))

theorem PhiS_pos (c : Dev nD) (n : ℕ) (hn : n ≠ 0) :
    PhiS m c n = iprop(iprop(owns (c : Thread nD τ) scM0 fullShare (S1 m c) ∗ (∃ X, ⌜S2ok m c n X⌝ ∗ owns (c : Thread nD τ) scM1 fullShare X)) ∗ (∃ r, prngReg c r)) := by
  cases n with
  | zero => exact absurd rfl hn
  | succ n => rfl

/-- The proof data: the arrays as the region finds them; every input's buffer left as found; the output's buffer
    left at the block of output rows during the second sweep. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => OutRel m c t X
  Φ t := PhiS m c t.val
  q _ := fullShare
  owed _ := 0

/-- Input window 0's staging buffer holds its block of the argument array whenever the body is called. -/
theorem Y0_eq (c : Dev nD) (t : Fin cfg0.N) (Y : (cfg0.win 0).block.Idx → Elt F (cfg0.win 0).elt) (h : (rdat m c).Finds 0 t Y) :
    Y = iblk m c 0 t := by
  obtain ⟨d, hd⟩ := RDat.finds_in_eq_fetched (rdat m c) 0 rfl (fun _ _ _ => rfl) (fun _ _ _ h => h) t Y h
  rw [hd]; unfold RDat.fetched RDat.blockOf iblk; rfl
/-- Input window 1's staging buffer holds its block of the argument array whenever the body is called. -/
theorem Y1_eq (c : Dev nD) (t : Fin cfg0.N) (Y : (cfg0.win 1).block.Idx → Elt F (cfg0.win 1).elt) (h : (rdat m c).Finds 1 t Y) :
    Y = iblk m c 1 t := by
  obtain ⟨d, hd⟩ := RDat.finds_in_eq_fetched (rdat m c) 1 rfl (fun _ _ _ => rfl) (fun _ _ _ h => h) t Y h
  rw [hd]; unfold RDat.fetched RDat.blockOf iblk; rfl
/-- Input window 2's staging buffer holds its block of the argument array whenever the body is called. -/
theorem Y2_eq (c : Dev nD) (t : Fin cfg0.N) (Y : (cfg0.win 2).block.Idx → Elt F (cfg0.win 2).elt) (h : (rdat m c).Finds 2 t Y) :
    Y = iblk m c 2 t := by
  obtain ⟨d, hd⟩ := RDat.finds_in_eq_fetched (rdat m c) 2 rfl (fun _ _ _ => rfl) (fun _ _ _ h => h) t Y h
  rw [hd]; unfold RDat.fetched RDat.blockOf iblk; rfl
/-- Input window 3's staging buffer holds its block of the argument array whenever the body is called. -/
theorem Y3_eq (c : Dev nD) (t : Fin cfg0.N) (Y : (cfg0.win 3).block.Idx → Elt F (cfg0.win 3).elt) (h : (rdat m c).Finds 3 t Y) :
    Y = iblk m c 3 t := by
  obtain ⟨d, hd⟩ := RDat.finds_in_eq_fetched (rdat m c) 3 rfl (fun _ _ _ => rfl) (fun _ _ _ h => h) t Y h
  rw [hd]; unfold RDat.fetched RDat.blockOf iblk; rfl
/-- Input window 4's staging buffer holds its block of the argument array whenever the body is called. -/
theorem Y4_eq (c : Dev nD) (t : Fin cfg0.N) (Y : (cfg0.win 4).block.Idx → Elt F (cfg0.win 4).elt) (h : (rdat m c).Finds 4 t Y) :
    Y = iblk m c 4 t := by
  obtain ⟨d, hd⟩ := RDat.finds_in_eq_fetched (rdat m c) 4 rfl (fun _ _ _ => rfl) (fun _ _ _ h => h) t Y h
  rw [hd]; unfold RDat.fetched RDat.blockOf iblk; rfl
/-- Input window 5's staging buffer holds its block of the argument array whenever the body is called. -/
theorem Y5_eq (c : Dev nD) (t : Fin cfg0.N) (Y : (cfg0.win 5).block.Idx → Elt F (cfg0.win 5).elt) (h : (rdat m c).Finds 5 t Y) :
    Y = iblk m c 5 t := by
  obtain ⟨d, hd⟩ := RDat.finds_in_eq_fetched (rdat m c) 5 rfl (fun _ _ _ => rfl) (fun _ _ _ h => h) t Y h
  rw [hd]; unfold RDat.fetched RDat.blockOf iblk; rfl

set_option maxHeartbeats 4000000 in
/-- The body at any point, by the kind of the point. -/
theorem sound_body (c : Dev nD) (t : Fin cfg0.N) (y6 : Vec F S400x16 .f32) :
    iprop((rdat m c).Φ t.castSucc ∗ (rdat m c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare y6)
      ⊢ wp frame (wpE (defs₀ (F := F)) Variants.none c none) Set.univ (bodyAt0 t) (fun _ =>
        iprop((rdat m c).Φ t.succ ∗ (rdat m c).owesAt () t.succ
          ∗ (∃ X, ⌜X = iblk m c 0 t⌝ ∗ owns (c : Thread nD τ) (ms0 t) fullShare X)
          ∗ (∃ X, ⌜X = iblk m c 1 t⌝ ∗ owns (c : Thread nD τ) (ms1 t) fullShare X)
          ∗ (∃ X, ⌜X = iblk m c 2 t⌝ ∗ owns (c : Thread nD τ) (ms2 t) fullShare X)
          ∗ (∃ X, ⌜X = iblk m c 3 t⌝ ∗ owns (c : Thread nD τ) (ms3 t) fullShare X)
          ∗ (∃ X, ⌜X = iblk m c 4 t⌝ ∗ owns (c : Thread nD τ) (ms4 t) fullShare X)
          ∗ (∃ X, ⌜X = iblk m c 5 t⌝ ∗ owns (c : Thread nD τ) (ms5 t) fullShare X)
          ∗ (∃ X, ⌜OutRel m c t X⌝ ∗ owns (c : Thread nD τ) (ms6 t) fullShare X))) := by
  unfold bodyAt0
  rw [show (rdat m c).owesAt () t.succ = (rdat m c).owesAt () t.castSucc from rfl]
  rw [show (rdat m c).Φ t.succ = PhiS m c (t.val + 1) from rfl, show (rdat m c).Φ t.castSucc = PhiS m c t.val from rfl]
  rw [PhiS_pos m c (t.val + 1) (Nat.succ_ne_zero _)]
  have hN : t.val < 50 := lt_of_lt_of_eq t.isLt (show cfg0.N = 50 from N_0)
  by_cases hz : t.val = 0
  · -- the first point
    obtain rfl : t = t0 := Fin.ext hz
    have hc1 : cond1 (grid0.coords t0) := (hcond1 t0).mpr hz
    have hc2 : cond2 (grid0.coords t0) := (hcond2 t0).mpr (by omega)
    have hc3 : ¬cond3 (grid0.coords t0) := fun h => by have := (hcond3 t0).mp h; omega
    rw [show PhiS m c (t0 : Fin cfg0.N).val = Pipeline.ΦA spec0 c from rfl, PhiA_eq]
    iintro ⟨⟨⟨HS0, HS1⟩, Hg⟩, Ho, H0, H1, H2, H3, H4, H5, H6⟩
    iapply ((kernelRunA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, ⟨%f9, HS0⟩, ⟨%f10, HS1⟩⟩
    isplitl [HS0 HS1 Hg]
    · isplitl [HS0 HS1]
      · isplitl [HS0]
        · unfold owns; iexists _; isplitr
          swap; · iexact HS0
          ipureintro
          exact scr0A_eq c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6 f9
        · iexists (scM1.view.read (Elt F) (scM1.view.writes (Elt F) f10 (kernelRunA c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6).2.1)); isplitr
          · ipureintro
            intro u hu _ y x hy0 hy1
            obtain rfl : u = t0 := Fin.ext (by omega)
            exact scr1A_mem c (grid0.coords t0) (ms0 t0) (hs0 t0) (ms1 t0) (hs1 t0) (ms2 t0) (hs2 t0) (ms3 t0) (hs3 t0) (ms4 t0) (hs4 t0) (ms5 t0) (hs5 t0) (ms6 t0) (hs6 t0) scM0 (Memref.isWhole_whole _) scM1 (Memref.isWhole_whole _) hc1 hc2 hc3 (iblk m c 0 t0) (iblk m c 1 t0) (iblk m c 2 t0) (iblk m c 3 t0) (iblk m c 4 t0) (iblk m c 5 t0) y6 f10 (400 * (t0 : Fin cfg0.N).val) (off1_eq t0 (by omega)) y x hy0 hy1
          · unfold owns; iexists _; isplitr
            · ipureintro; rfl
            · iexact HS1
      · iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    · iexists y6; isplitr
      · ipureintro; intro h; omega
      · iexact H6
  · by_cases h25 : t.val < 25
    · -- a later point of the first sweep
      have hc1 : ¬cond1 (grid0.coords t) := fun h => hz ((hcond1 t).mp h)
      have hc2 : cond2 (grid0.coords t) := (hcond2 t).mpr h25
      have hc3 : ¬cond3 (grid0.coords t) := fun h => by have := (hcond3 t).mp h; omega
      rw [PhiS_pos m c t.val hz]
      iintro ⟨⟨⟨HS0, ⟨%X, %hX, HS1⟩⟩, Hg⟩, Ho, H0, H1, H2, H3, H4, H5, H6⟩
      iapply ((kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]; · iexact HS0
          iexists (scM1.view.read (Elt F) (scM1.view.writes (Elt F) ((Memref.isWhole_whole cc0_scratch1).unread X) (kernelRunB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X).1)); isplitr
          · ipureintro
            intro u hu hu25 y x hy0 hy1
            have hx : (x (0 : Fin 2)).val < 400 := (x (0 : Fin 2)).isLt
            by_cases hut : u.val = t.val
            · obtain rfl : u = t := Fin.ext hut
              exact scrB_mem c (grid0.coords u) (ms0 u) (hs0 u) (ms1 u) (hs1 u) (ms2 u) (hs2 u) (ms3 u) (hs3 u) (ms4 u) (hs4 u) (ms5 u) (hs5 u) (ms6 u) (hs6 u) scM0 (Memref.isWhole_whole _) scM1 (Memref.isWhole_whole _) hc1 hc2 hc3 (iblk m c 0 u) (iblk m c 1 u) (iblk m c 2 u) (iblk m c 3 u) (iblk m c 4 u) (iblk m c 5 u) y6 (S1 m c) X (400 * u.val) (off1_eq u h25) y x hy0 hy1
            · exact (scrB_not_mem c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) y6 (S1 m c) X (400 * t.val) (off1_eq t h25) y (by omega)).trans
                (hX u (by omega) hu25 y x hy0 hy1)
          · unfold owns; iexists _; isplitr
            · ipureintro; rfl
            · iexact HS1
        · iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      · iexists y6; isplitr
        · ipureintro; intro h; omega
        · iexact H6
    · -- a point of the second sweep
      have hc1 : ¬cond1 (grid0.coords t) := fun h => hz ((hcond1 t).mp h)
      have hc2 : ¬cond2 (grid0.coords t) := fun h => h25 ((hcond2 t).mp h)
      have hc3 : cond3 (grid0.coords t) := (hcond3 t).mpr (by omega)
      rw [PhiS_pos m c t.val hz]
      iintro ⟨⟨⟨HS0, ⟨%X, %hX, HS1⟩⟩, Hg⟩, Ho, H0, H1, H2, H3, H4, H5, H6⟩
      iapply ((kernelRunC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%f8, H6⟩, HS0, HS1⟩
      isplitl [HS0 HS1 Hg]
      · isplitl [HS0 HS1]
        · isplitl [HS0]; · iexact HS0
          iexists X; isplitr
          · ipureintro; exact S2ok_mono m c X hX (.inl (by omega))
          · iexact HS1
        · iexact Hg
      isplitl [Ho]; · iexact Ho
      isplitl [H0]
      · iexists _; isplitr; · ipureintro; rfl
        iexact H0
      isplitl [H1]
      · iexists _; isplitr; · ipureintro; rfl
        iexact H1
      isplitl [H2]
      · iexists _; isplitr; · ipureintro; rfl
        iexact H2
      isplitl [H3]
      · iexists _; isplitr; · ipureintro; rfl
        iexact H3
      isplitl [H4]
      · iexists _; isplitr; · ipureintro; rfl
        iexact H4
      isplitl [H5]
      · iexists _; isplitr; · ipureintro; rfl
        iexact H5
      · iexists ((ms6 t).view.read (Elt F) ((ms6 t).view.writes (Elt F) f8 (kernelRunC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X).1)); isplitr
        · ipureintro; intro _
          exact ⟨X, S2ok_mono m c X hX (.inl (by omega)), outC_eq c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc1 hc2 hc3 (iblk m c 0 t) (iblk m c 1 t) (iblk m c 2 t) (iblk m c 3 t) (iblk m c 4 t) (iblk m c 5 t) (S1 m c) X f8⟩
        · unfold owns; iexists _; isplitr
          · ipureintro; rfl
          · iexact H6

/-- The body obligation at every point: each input's buffer holds its block, and the body runs as above. -/
theorem body_obligation (c : Dev nD) : (rdat (F := F) m c).BodyObligation (defs₀ (F := F)) Variants.none () Set.univ := fun t Y hY => by
  rw [bigSep_W0, bigSep_W0]
  have e0 := Y0_eq m c t (Y 0) (hY 0)
  have e1 := Y1_eq m c t (Y 1) (hY 1)
  have e2 := Y2_eq m c t (Y 2) (hY 2)
  have e3 := Y3_eq m c t (Y 3) (hY 3)
  have e4 := Y4_eq m c t (Y 4) (hY 4)
  have e5 := Y5_eq m c t (Y 5) (hY 5)
  rw [e0, e1, e2, e3, e4, e5]
  exact sound_body m c t (Y 6)

theorem hin (c : Dev nD) : Pipeline.ΦA spec0 c ⊢ (rdat m c).Φ 0 := Idealize.SL.BI.Entails.refl _

theorem hout (c : Dev nD) : (rdat m c).Φ (Fin.last cfg0.N) ⊢ Pipeline.ΦA spec0 c := by
  rw [show (rdat m c).Φ (Fin.last cfg0.N) = PhiS m c (Fin.last cfg0.N).val from rfl,
    PhiS_pos m c _ (by rw [Fin.val_last]; have : cfg0.N = 50 := N_0; omega), PhiA_eq]
  iintro ⟨⟨HS0, ⟨%X, -, HS1⟩⟩, Hg⟩
  isplitl [HS0 HS1]
  · isplitl [HS0]
    · iexists _; iexact HS0
    · iexists _; iexact HS1
  iexact Hg

set_option backward.isDefEq.respectTransparency.types false in
/-- Every weakly fair execution terminates; the input arrays end as they began, the output array at contents the
    write-backs allow, every other buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hin := hin m) (hout := hout m)

/-- An input array is never written: it ends at what the region found. -/
theorem arr_in (c : Dev nD) (w : Fin cfg0.W) (hw : (cfg0.win w).isOut = false) (G : Buf (Elt F) ((cfg0.win w).arr.view.loc (c.tc : Thread nD τ)))
    (h : (rdat m c).ArrAt w cfg0.N G) : G = V m c (Pipeline.arrRef spec0 w) := by
  rw [(rdat m c).ArrAt_in w hw] at h; exact h

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.KernelIdeal.Body

end
-- ==== Proof.ValBlocks.lean ====
/-
  Each window's block, read at an index, is an entry of the argument array as the region finds it: the features, the
  weights and the biases whole; the adjacency by blocks of four hundred rows, the block a point works on given by
  the order in which the two sweeps visit them. The biases reach the kernel as one-row matrices.
-/
import proofs.«133281_g11046655885806_week1_w3_820_16_alg».proof.Proof.IBody
import Idealize.ShloMosaic.Lib.ValueIdx
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The windows of the whole arrays never move. -/
theorem idx_whole : ∀ t : Fin cfg0.N, win0_0.index t = ![0, 0] ∧ win0_2.index t = ![0, 0] ∧ win0_3.index t = ![0, 0]
    ∧ win0_4.index t = ![0, 0] ∧ win0_5.index t = ![0, 0] :=
  (by decide +kernel : ∀ t : Fin grid0.N, _)

theorem blk0_apply (c : Dev nD) (t : Fin cfg0.N) (y : S10000x128.Idx) : iblk m c 0 t y = V m c main_arg0 y := by
  show V m c main_arg0 (((cfg0.win 0).blk t).view.emb y) = V m c main_arg0 y
  refine congrArg _ (funext fun a => Fin.ext ?_)
  have h := (idx_whole t).1
  have h0 : win0_0.index t (0 : Fin 2) = 0 := congrFun h 0
  have h1 : win0_0.index t (1 : Fin 2) = 0 := congrFun h 1
  match a with
  | ⟨0, _⟩ => show win0_0.index t (0 : Fin 2) * 10000 + 1 * (y 0).val = (y 0).val; omega
  | ⟨1, _⟩ => show win0_0.index t (1 : Fin 2) * 128 + 1 * (y 1).val = (y 1).val; omega
theorem blk2_apply (c : Dev nD) (t : Fin cfg0.N) (y : S128x64.Idx) : iblk m c 2 t y = V m c main_arg2 y := by
  show V m c main_arg2 (((cfg0.win 2).blk t).view.emb y) = V m c main_arg2 y
  refine congrArg _ (funext fun a => Fin.ext ?_)
  have h := (idx_whole t).2.1
  have h0 : win0_2.index t (0 : Fin 2) = 0 := congrFun h 0
  have h1 : win0_2.index t (1 : Fin 2) = 0 := congrFun h 1
  match a with
  | ⟨0, _⟩ => show win0_2.index t (0 : Fin 2) * 128 + 1 * (y 0).val = (y 0).val; omega
  | ⟨1, _⟩ => show win0_2.index t (1 : Fin 2) * 64 + 1 * (y 1).val = (y 1).val; omega
theorem blk3_apply (c : Dev nD) (t : Fin cfg0.N) (y : S1x64.Idx) : iblk m c 3 t y = V m c main_call0_v0 y := by
  show V m c main_call0_v0 (((cfg0.win 3).blk t).view.emb y) = V m c main_call0_v0 y
  refine congrArg _ (funext fun a => Fin.ext ?_)
  have h := (idx_whole t).2.2.1
  have h0 : win0_3.index t (0 : Fin 2) = 0 := congrFun h 0
  have h1 : win0_3.index t (1 : Fin 2) = 0 := congrFun h 1
  match a with
  | ⟨0, _⟩ => show win0_3.index t (0 : Fin 2) * 1 + 1 * (y 0).val = (y 0).val; omega
  | ⟨1, _⟩ => show win0_3.index t (1 : Fin 2) * 64 + 1 * (y 1).val = (y 1).val; omega
theorem blk4_apply (c : Dev nD) (t : Fin cfg0.N) (y : S64x16.Idx) : iblk m c 4 t y = V m c main_arg4 y := by
  show V m c main_arg4 (((cfg0.win 4).blk t).view.emb y) = V m c main_arg4 y
  refine congrArg _ (funext fun a => Fin.ext ?_)
  have h := (idx_whole t).2.2.2.1
  have h0 : win0_4.index t (0 : Fin 2) = 0 := congrFun h 0
  have h1 : win0_4.index t (1 : Fin 2) = 0 := congrFun h 1
  match a with
  | ⟨0, _⟩ => show win0_4.index t (0 : Fin 2) * 64 + 1 * (y 0).val = (y 0).val; omega
  | ⟨1, _⟩ => show win0_4.index t (1 : Fin 2) * 16 + 1 * (y 1).val = (y 1).val; omega
theorem blk5_apply (c : Dev nD) (t : Fin cfg0.N) (y : S1x16.Idx) : iblk m c 5 t y = V m c main_call0_v1 y := by
  show V m c main_call0_v1 (((cfg0.win 5).blk t).view.emb y) = V m c main_call0_v1 y
  refine congrArg _ (funext fun a => Fin.ext ?_)
  have h := (idx_whole t).2.2.2.2
  have h0 : win0_5.index t (0 : Fin 2) = 0 := congrFun h 0
  have h1 : win0_5.index t (1 : Fin 2) = 0 := congrFun h 1
  match a with
  | ⟨0, _⟩ => show win0_5.index t (0 : Fin 2) * 1 + 1 * (y 0).val = (y 0).val; omega
  | ⟨1, _⟩ => show win0_5.index t (1 : Fin 2) * 16 + 1 * (y 1).val = (y 1).val; omega

/-- The adjacency block a point works on, read at an entry: the row is four hundred times the block's number plus the
    row inside the block. -/
theorem blk1_apply (c : Dev nD) (t : Fin cfg0.N) (y : S400x10000.Idx) (i : S10000x10000.Idx)
    (hi0 : (i 0).val = 400 * rowBlock t.val + (y 0).val) (hi1 : (i 1).val = (y 1).val) :
    iblk m c 1 t y = V m c main_arg1 i := by
  show V m c main_arg1 (((cfg0.win 1).blk t).view.emb y) = V m c main_arg1 i
  refine congrArg _ (funext fun a => Fin.ext ?_)
  have h := index1_eq t
  have h0 : win0_1.index t (0 : Fin 2) = rowBlock t.val := congrFun h 0
  have h1 : win0_1.index t (1 : Fin 2) = 0 := congrFun h 1
  match a with
  | ⟨0, _⟩ => show win0_1.index t (0 : Fin 2) * 400 + 1 * (y 0).val = (i 0).val; omega
  | ⟨1, _⟩ => show win0_1.index t (1 : Fin 2) * 10000 + 1 * (y 1).val = (i 1).val; omega

/-- The first bias as the region finds it: the bias vector laid out as one row. -/
theorem V_b1 (c : Dev nD) (y : S1x64.Idx) (k : S64.Idx) (hk : (k 0).val = (y 1).val) :
    V m c main_call0_v0 y = m ((c.tc : Thread nD τ).loc main_arg3) k := by
  have e : (V m c main_call0_v0 : S1x64.Idx → EReal) = shapeCast S1x64 (m ((c.tc : Thread nD τ).loc main_arg3)) shapeCasts_S64_S1x64 := by
    dsimp only [Gen.V, Gen.hostOps0]; after_results; rfl
  rw [e]
  exact shapeCast_apply _ shapeCasts_S64_S1x64 y k (by
    rw [Shape.rowMajor_val_one, Shape.rowMajor_val_two]
    have := (y 0).isLt
    show (k 0).val = (y 0).val * 64 + (y 1).val
    have h0 : (y 0).val < 1 := (y 0).isLt
    omega)

/-- The second bias likewise. -/
theorem V_b2 (c : Dev nD) (y : S1x16.Idx) (k : S16.Idx) (hk : (k 0).val = (y 1).val) :
    V m c main_call0_v1 y = m ((c.tc : Thread nD τ).loc main_arg5) k := by
  have e : (V m c main_call0_v1 : S1x16.Idx → EReal) = shapeCast S1x16 (m ((c.tc : Thread nD τ).loc main_arg5)) shapeCasts_S16_S1x16 := by
    dsimp only [Gen.V, Gen.hostOps0]; after_results; rfl
  rw [e]
  exact shapeCast_apply _ shapeCasts_S16_S1x16 y k (by
    rw [Shape.rowMajor_val_one, Shape.rowMajor_val_two]
    show (k 0).val = (y 0).val * 16 + (y 1).val
    have h0 : (y 0).val < 1 := (y 0).isLt
    omega)

end Cert.KernelIdeal.Val

end
-- ==== Proof.ValMat.lean ====
/-
  The kernel's arithmetic over the extended reals, entry by entry. A matrix product into a zero accumulator is the sum
  over the contracted coordinate; the hidden layer's block is such a sum of clamped sums, the output block a clamped sum.
  The first projection, a product of whole arrays, is the reference's first product itself.
-/
import proofs.«133281_g11046655885806_week1_w3_820_16_alg».proof.Proof.Gen.KernelIdeal.Skeleton
import proofs.«133281_g11046655885806_week1_w3_820_16_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen
open Cert.ReferenceIdeal.Read (val_main_v0)

/-- The first projection is the reference's first product: the same contraction of the same two arrays. -/
theorem pay1_eq (x : Vec Ideal S10000x128 .f32) (w : Vec Ideal S128x64 .f32) :
    k0_pay1 (F := Ideal) x w = val_main_v0 (F := Ideal) x w := by
  funext j
  unfold k0_pay1 val_main_v0
  dsimp only
  simp only [Host.dotGeneral]
  rw [shapeCast_self]
  refine (Ideal.matmul_constant_zero_apply _ none x w j).trans ?_
  rw [Ideal.dotGeneral_apply]
  rfl

/-- The operand indices of the product A: row of the output and the contracted coordinate; the contracted
    coordinate and column of the output. -/
abbrev lA (i : S400x64.Idx) (k : Fin 10000) : S400x10000.Idx := fun a => match a with
  | ⟨0, _⟩ => ⟨(i 0).val, (i 0).isLt⟩
  | ⟨1, _⟩ => ⟨k.val, k.isLt⟩
abbrev rA (i : S400x64.Idx) (k : Fin 10000) : S10000x64.Idx := fun a => match a with
  | ⟨0, _⟩ => ⟨k.val, k.isLt⟩
  | ⟨1, _⟩ => ⟨(i 1).val, (i 1).isLt⟩
theorem lhsA_0 (i : S400x64.Idx) (q : dot_S400x10000_S10000x64_S400x64_1_0_0_1_n_n.contr.Idx) : (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem rhsA_1 (i : S400x64.Idx) (q : dot_S400x10000_S10000x64_S400x64_1_0_0_1_n_n.contr.Idx) : (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl
/-- Over the extended reals a matrix product into a zero accumulator is, entry by entry, the sum over the contracted
    coordinate of the products of the operands' entries. -/
theorem mmA_apply (a : FVec Ideal S400x10000 .f32) (s : FVec Ideal S10000x64 .f32) (i : S400x64.Idx) :
    matmul dot_S400x10000_S10000x64_S400x64_1_0_0_1_n_n none a s (constant (F := Ideal) S400x64 .f32 0x00000000#32) i
      = ∑ k : Fin 10000, a (lA i k) * s (rA i k) := by
  refine (Ideal.matmul_constant_zero_apply _ none a s i).trans ?_
  rw [← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx i ((contrEquiv1 dot_S400x10000_S10000x64_S400x64_1_0_0_1_n_n 10000 rfl rfl).symm k) = lA i k := funext fun a => Fin.ext (by
    match a with
    | ⟨0, _⟩ => exact lhsA_0 _ _
    | ⟨1, _⟩ => exact (dot_S400x10000_S10000x64_S400x64_1_0_0_1_n_n.lhsIdx_val_of_single rfl i _).trans hk)
  have er : dot_S400x10000_S10000x64_S400x64_1_0_0_1_n_n.rhsIdx i ((contrEquiv1 dot_S400x10000_S10000x64_S400x64_1_0_0_1_n_n 10000 rfl rfl).symm k) = rA i k := funext fun a => Fin.ext (by
    match a with
    | ⟨0, _⟩ => exact (dot_S400x10000_S10000x64_S400x64_1_0_0_1_n_n.rhsIdx_val_of_single rfl i _).trans hk
    | ⟨1, _⟩ => exact rhsA_1 _ _)
  rw [el, er]

/-- The operand indices of the product B: row of the output and the contracted coordinate; the contracted
    coordinate and column of the output. -/
abbrev lB (i : S400x16.Idx) (k : Fin 64) : S400x64.Idx := fun a => match a with
  | ⟨0, _⟩ => ⟨(i 0).val, (i 0).isLt⟩
  | ⟨1, _⟩ => ⟨k.val, k.isLt⟩
abbrev rB (i : S400x16.Idx) (k : Fin 64) : S64x16.Idx := fun a => match a with
  | ⟨0, _⟩ => ⟨k.val, k.isLt⟩
  | ⟨1, _⟩ => ⟨(i 1).val, (i 1).isLt⟩
theorem lhsB_0 (i : S400x16.Idx) (q : dot_S400x64_S64x16_S400x16_1_0_0_1_n_n.contr.Idx) : (dot_S400x64_S64x16_S400x16_1_0_0_1_n_n.lhsIdx i q 0).val = (i 0).val := by
  unfold DotDims.lhsIdx
  rw [dif_neg (show ¬(0 : Fin S400x64.rank) ∈ dot_S400x64_S64x16_S400x16_1_0_0_1_n_n.lhsBatch by decide), dif_pos (show (0 : Fin S400x64.rank) ∈ dot_S400x64_S64x16_S400x16_1_0_0_1_n_n.lhsNonContracting by decide)]
  rfl
theorem rhsB_1 (i : S400x16.Idx) (q : dot_S400x64_S64x16_S400x16_1_0_0_1_n_n.contr.Idx) : (dot_S400x64_S64x16_S400x16_1_0_0_1_n_n.rhsIdx i q 1).val = (i 1).val := by
  unfold DotDims.rhsIdx
  rw [dif_neg (show ¬(1 : Fin S64x16.rank) ∈ dot_S400x64_S64x16_S400x16_1_0_0_1_n_n.rhsBatch by decide), dif_pos (show (1 : Fin S64x16.rank) ∈ dot_S400x64_S64x16_S400x16_1_0_0_1_n_n.rhsNonContracting by decide)]
  rfl
/-- Over the extended reals a matrix product into a zero accumulator is, entry by entry, the sum over the contracted
    coordinate of the products of the operands' entries. -/
theorem mmB_apply (a : FVec Ideal S400x64 .f32) (s : FVec Ideal S64x16 .f32) (i : S400x16.Idx) :
    matmul dot_S400x64_S64x16_S400x16_1_0_0_1_n_n none a s (constant (F := Ideal) S400x16 .f32 0x00000000#32) i
      = ∑ k : Fin 64, a (lB i k) * s (rB i k) := by
  refine (Ideal.matmul_constant_zero_apply _ none a s i).trans ?_
  rw [← Equiv.sum_comp (contrEquiv1 dot_S400x64_S64x16_S400x16_1_0_0_1_n_n 64 rfl rfl).symm]
  refine Finset.sum_congr rfl fun k _ => ?_
  have hk := contrEquiv1_symm_val dot_S400x64_S64x16_S400x16_1_0_0_1_n_n 64 rfl rfl k
  have el : dot_S400x64_S64x16_S400x16_1_0_0_1_n_n.lhsIdx i ((contrEquiv1 dot_S400x64_S64x16_S400x16_1_0_0_1_n_n 64 rfl rfl).symm k) = lB i k := funext fun a => Fin.ext (by
    match a with
    | ⟨0, _⟩ => exact lhsB_0 _ _
    | ⟨1, _⟩ => exact (dot_S400x64_S64x16_S400x16_1_0_0_1_n_n.lhsIdx_val_of_single rfl i _).trans hk)
  have er : dot_S400x64_S64x16_S400x16_1_0_0_1_n_n.rhsIdx i ((contrEquiv1 dot_S400x64_S64x16_S400x16_1_0_0_1_n_n 64 rfl rfl).symm k) = rB i k := funext fun a => Fin.ext (by
    match a with
    | ⟨0, _⟩ => exact (dot_S400x64_S64x16_S400x16_1_0_0_1_n_n.rhsIdx_val_of_single rfl i _).trans hk
    | ⟨1, _⟩ => exact rhsB_1 _ _)
  rw [el, er]

/-- The operand indices of the product C: row of the output and the contracted coordinate; the contracted
    coordinate and column of the output. -/
abbrev lC (i : S400x16.Idx) (k : Fin 10000) : S400x10000.Idx := fun a => match a with
  | ⟨0, _⟩ => ⟨(i 0).val, (i 0).isLt⟩
  | ⟨1, _⟩ => ⟨k.val, k.isLt⟩
abbrev rC (i : S400x16.Idx) (k : Fin 10000) : S10000x16.Idx := fun a => match a with
  | ⟨0, _⟩ => ⟨k.val, k.isLt⟩
  | ⟨1, _⟩ => ⟨(i 1).val, (i 1).isLt⟩
theorem lhsC_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem rhsC_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- Over the extended reals a matrix product into a zero accumulator is, entry by entry, the sum over the contracted
    coordinate of the products of the operands' entries. -/
theorem mmC_apply (a : FVec Ideal S400x10000 .f32) (s : FVec Ideal S10000x16 .f32) (i : S400x16.Idx) :
    matmul dot_S400x10000_S10000x16_S400x16_1_0_0_1_n_n none a s (constant (F := Ideal) S400x16 .f32 0x00000000#32) i
      = ∑ k : Fin 10000, a (lC i k) * s (rC i k) := by
  refine (Ideal.matmul_constant_zero_apply _ none a s i).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx i ((contrEquiv1 dot_S400x10000_S10000x16_S400x16_1_0_0_1_n_n 10000 rfl rfl).symm k) = lC i k := funext fun a => Fin.ext (by
    match a with
    | ⟨0, _⟩ => exact lhsC_0 _ _
    | ⟨1, _⟩ => exact (dot_S400x10000_S10000x16_S400x16_1_0_0_1_n_n.lhsIdx_val_of_single rfl i _).trans hk)
  have er : dot_S400x10000_S10000x16_S400x16_1_0_0_1_n_n.rhsIdx i ((contrEquiv1 dot_S400x10000_S10000x16_S400x16_1_0_0_1_n_n 10000 rfl rfl).symm k) = rC i k := funext fun a => Fin.ext (by
    match a with
    | ⟨0, _⟩ => exact (dot_S400x10000_S10000x16_S400x16_1_0_0_1_n_n.rhsIdx_val_of_single rfl i _).trans hk
    | ⟨1, _⟩ => exact rhsC_1 _ _)
  rw [el, er]

/-- The entry of a one-row bias under a column. -/
abbrev b64 (k : Fin 64) : S1x64.Idx := fun a => match a with
  | ⟨0, _⟩ => ⟨0, Nat.one_pos⟩
  | ⟨1, _⟩ => ⟨k.val, k.isLt⟩
abbrev b16 (k : Fin 16) : S1x16.Idx := fun a => match a with
  | ⟨0, _⟩ => ⟨0, Nat.one_pos⟩
  | ⟨1, _⟩ => ⟨k.val, k.isLt⟩

/-- A one-row bias broadcast down the rows reads, at any row, its entry under the column. -/
theorem bcast64 (b : Vec Ideal S1x64 .f32) (i : S400x64.Idx) :
    broadcastTo S400x64 b broadcasts_S1x64_S400x64 i = b (b64 ⟨(i 1).val, (i 1).isLt⟩) :=
  broadcastTo_apply b broadcasts_S1x64_S400x64 i _ (fun a => match a with
    | ⟨0, _⟩ => by show 0 = if (1 : Nat) = 1 then 0 else _; rw [if_pos rfl]
    | ⟨1, _⟩ => by show (i 1).val = if (64 : Nat) = 1 then 0 else (i 1).val; rw [if_neg (by decide)])
theorem bcast16 (b : Vec Ideal S1x16 .f32) (i : S400x16.Idx) :
    broadcastTo S400x16 b broadcasts_S1x16_S400x16 i = b (b16 ⟨(i 1).val, (i 1).isLt⟩) :=
  broadcastTo_apply b broadcasts_S1x16_S400x16 i _ (fun a => match a with
    | ⟨0, _⟩ => by show 0 = if (1 : Nat) = 1 then 0 else _; rw [if_pos rfl]
    | ⟨1, _⟩ => by show (i 1).val = if (16 : Nat) = 1 then 0 else (i 1).val; rw [if_neg (by decide)])

/-- A block of the projected hidden layer, entry by entry: over the hidden coordinate, the clamped sum (adjacency row
    times a column of the first projection, plus the bias) times the second weight's entry. -/
theorem pay2_apply (a : Vec Ideal S400x10000 .f32) (s : Vec Ideal S10000x64 .f32) (b : Vec Ideal S1x64 .f32) (w : Vec Ideal S64x16 .f32) (i : S400x16.Idx) :
    k0_pay2 (F := Ideal) a s b w i
      = ∑ k : Fin 64, max ((∑ j : Fin 10000, a (lA (lB i k) j) * s (rA (lB i k) j)) + b (b64 k)) (Ideal.ofBits .f32 0x00000000#32) * w (rB i k) := by
  unfold k0_pay2
  try dsimp only
  rw [shapeCast_self, shapeCast_self]
  refine (mmB_apply _ w i).trans ?_
  refine Finset.sum_congr rfl fun k _ => ?_
  congr 1
  rw [maximumf_apply, addf_apply, mmA_apply, bcast64]
  rfl

/-- A block of output rows, entry by entry: the clamped sum of the adjacency row times a column of the projected hidden
    layer, plus the bias. -/
theorem pay3_apply (a : Vec Ideal S400x10000 .f32) (s : Vec Ideal S10000x16 .f32) (b : Vec Ideal S1x16 .f32) (i : S400x16.Idx) :
    k0_pay3 (F := Ideal) a s b i
      = max ((∑ j : Fin 10000, a (lC i j) * s (rC i j)) + b (b16 ⟨(i 1).val, (i 1).isLt⟩)) (Ideal.ofBits .f32 0x00000000#32) := by
  unfold k0_pay3
  try dsimp only
  rw [shapeCast_self]
  rw [maximumf_apply, addf_apply, mmC_apply, bcast16]
  rfl

end Cert.KernelIdeal.Val

end
-- ==== Proof.ValCore.lean ====
/-
  The two sides meet entry by entry. A block of the projected hidden layer is the corresponding rows of the reference's
  second product: the same sum over the hidden coordinate of the same clamped sums, the adjacency block's rows being
  rows of the whole adjacency. A block of output rows is the corresponding rows of the reference's result, once the
  second scratch holds the reference's second product.
-/
import proofs.«133281_g11046655885806_week1_w3_820_16_alg».proof.Proof.ValMat

set_option maxRecDepth 16384

noncomputable section

namespace Cert.KernelIdeal.Val

open Idealize.ShloMosaic Idealize.ShloMosaic.ValueIdx
open Cert.KernelIdeal Cert.KernelIdeal.Gen
open Cert.ReferenceIdeal.Read

/-- A block of the projected hidden layer against the reference's second product, for any block of the adjacency whose
    rows are rows r·400 … of the whole adjacency, the bias row and the second weight as the reference's. -/
theorem H2_core (a : Vec Ideal S400x10000 .f32) (b : Vec Ideal S1x64 .f32) (w : Vec Ideal S64x16 .f32)
    (X0 : Vec Ideal S10000x128 .f32) (X1 : Vec Ideal S10000x10000 .f32) (X2 : Vec Ideal S128x64 .f32) (X3 : Vec Ideal S64 .f32) (X4 : Vec Ideal S64x16 .f32)
    (r : ℕ) (x : S400x16.Idx) (y : S10000x16.Idx)
    (hy0 : (y 0).val = 400 * r + (x 0).val) (hy1 : (y 1).val = (x 1).val)
    (ha : ∀ (p : S400x10000.Idx) (i : S10000x10000.Idx), (i 0).val = 400 * r + (p 0).val → (i 1).val = (p 1).val → a p = X1 i)
    (hb : ∀ (p : S1x64.Idx) (k : S64.Idx), (k 0).val = (p 1).val → b p = X3 k)
    (hw : ∀ p : S64x16.Idx, w p = X4 p) :
    k0_pay2 (F := Ideal) a (val_main_v0 (F := Ideal) X0 X2) b w x = val_main_v6 (F := Ideal) X0 X1 X2 X3 X4 y := by
  rw [pay2_apply, val_main_v6_apply]
  refine Finset.sum_congr rfl fun k _ => ?_
  rw [val_main_v5_apply, val_main_v4_apply, val_main_v1_apply, val_main_v3_apply, val_main_v2_apply, val_main_call0_v0_apply, val_main_call0_cst_apply]
  rw [hw (rB x k), hb (b64 k) (idx_main_v2 (idx_main_v3 (lidx_main_v6 y k))) rfl]
  have hs : ∑ j : Fin 10000, a (lA (lB x k) j) * val_main_v0 (F := Ideal) X0 X2 (rA (lB x k) j)
      = ∑ j : Fin 10000, X1 (lidx_main_v1 (lidx_main_v6 y k) j) * val_main_v0 (F := Ideal) X0 X2 (ridx_main_v1 (lidx_main_v6 y k) j) :=
    Finset.sum_congr rfl fun j _ => by
      rw [ha (lA (lB x k) j) (lidx_main_v1 (lidx_main_v6 y k) j) hy0 rfl]
      exact congrArg (fun z => X1 (lidx_main_v1 (lidx_main_v6 y k) j) * val_main_v0 (F := Ideal) X0 X2 z)
        (funext fun a => Fin.ext (by match a with | ⟨0, _⟩ => rfl | ⟨1, _⟩ => rfl))
  rw [hs]
  exact congrArg (fun z => max ((∑ j : Fin 10000, X1 (lidx_main_v1 (lidx_main_v6 y k) j) * val_main_v0 (F := Ideal) X0 X2 (ridx_main_v1 (lidx_main_v6 y k) j))
      + X3 (idx_main_v2 (idx_main_v3 (lidx_main_v6 y k)))) (Ideal.ofBits .f32 0x00000000#32) * X4 z)
    (funext fun a => Fin.ext (by match a with | ⟨0, _⟩ => rfl | ⟨1, _⟩ => exact hy1.symm))

/-- A block of output rows against the reference's result, for any block of the adjacency whose rows are rows r·400 … of
    the whole adjacency, the second scratch at the reference's second product, the bias row as the reference's. -/
theorem Out_core (a : Vec Ideal S400x10000 .f32) (S : Vec Ideal S10000x16 .f32) (b : Vec Ideal S1x16 .f32)
    (X0 : Vec Ideal S10000x128 .f32) (X1 : Vec Ideal S10000x10000 .f32) (X2 : Vec Ideal S128x64 .f32) (X3 : Vec Ideal S64 .f32) (X4 : Vec Ideal S64x16 .f32) (X5 : Vec Ideal S16 .f32)
    (r : ℕ) (y : S400x16.Idx) (i : S10000x16.Idx)
    (hi0 : (i 0).val = 400 * r + (y 0).val) (hi1 : (i 1).val = (y 1).val)
    (ha : ∀ (p : S400x10000.Idx) (j : S10000x10000.Idx), (j 0).val = 400 * r + (p 0).val → (j 1).val = (p 1).val → a p = X1 j)
    (hS : ∀ q : S10000x16.Idx, S q = val_main_v6 (F := Ideal) X0 X1 X2 X3 X4 q)
    (hb : ∀ (p : S1x16.Idx) (k : S16.Idx), (k 0).val = (p 1).val → b p = X5 k) :
    k0_pay3 (F := Ideal) a S b y = val_main_v11 (F := Ideal) X0 X1 X2 X3 X4 X5 i := by
  rw [pay3_apply, val_main_v11_apply, val_main_v10_apply, val_main_v7_apply, val_main_v9_apply, val_main_v8_apply, val_main_call1_v0_apply, val_main_call1_cst_apply]
  rw [hb (b16 ⟨(y 1).val, (y 1).isLt⟩) (idx_main_v8 (idx_main_v9 i)) hi1]
  have hs : ∑ j : Fin 10000, a (lC y j) * S (rC y j)
      = ∑ j : Fin 10000, X1 (lidx_main_v7 i j) * val_main_v6 (F := Ideal) X0 X1 X2 X3 X4 (ridx_main_v7 i j) :=
    Finset.sum_congr rfl fun j _ => by
      rw [ha (lC y j) (lidx_main_v7 i j) hi0 rfl, hS (rC y j)]
      exact congrArg (fun z => X1 (lidx_main_v7 i j) * val_main_v6 (F := Ideal) X0 X1 X2 X3 X4 z)
        (funext fun a => Fin.ext (by match a with | ⟨0, _⟩ => rfl | ⟨1, _⟩ => exact hi1.symm))
  rw [hs]
  rfl

end Cert.KernelIdeal.Val

end
-- ==== Proof.LibArrAtLate.lean ====
/-
  A pipeline whose proof data are relational, and an output window some of whose early write-backs write contents
  nothing is said about. If from some point on every write-back writes its block of ONE array of contents, then after
  all the write-backs every entry lying in the block of such a late write-back reads that array: an early write-back of
  the same entry is overwritten, a late one writes the same value.
-/
import Idealize.ShloMosaic.Lib.Pipeline.Value

noncomputable section

namespace Idealize.ShloMosaic.Pipeline

open Idealize.ShloMosaic Idealize.SL Idealize.SL.RA Idealize.SL.BI Idealize.SL.Sem

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- LATE WRITE-BACKS DECIDE. If every write-back at a point from n₀ on writes its block of the one array T (whatever the
    body may have left there: hT), then contents the array may hold after the write-backs below n read T at every entry
    in the block of a write-back at a point t with n₀ ≤ t < n. -/
theorem RDat.arrAt_apply_of_late (w : Fin cfg.W) (T : Buf Val ((cfg.win w).arr.view.loc (c.tc : Thread nD τ))) (n₀ : ℕ)
    (hT : ∀ u : Fin cfg.N, n₀ ≤ u.val → (cfg.win w).flush u = true → ∀ X, rd.Leaves w u X →
      (cfg.win w).cut (cfg.grid.coords u) X = ((cfg.win w).blk u).view.read Val T) :
    ∀ (n : ℕ) (G : Buf Val ((cfg.win w).arr.view.loc (c.tc : Thread nD τ))), rd.ArrAt w n G →
      ∀ (t : Fin cfg.N) (i : ((cfg.win w).arr.view.loc (c.tc : Thread nD τ)).2.ty.Idx), n₀ ≤ t.val → t.val < n →
        (cfg.win w).flush t = true → i ∈ ((cfg.win w).blk t).view.set → G i = T i := by
  intro n
  induction n with
  | zero => intro G _ t i _ ht; exact absurd ht (Nat.not_lt_zero _)
  | succ n ih =>
    intro G hG t i h0 ht hf hi
    by_cases hn : n < cfg.N
    · have hs : rd.ArrAt w (n + 1) = if (cfg.win w).flush ⟨n, hn⟩ then rd.ArrStep w ⟨n, hn⟩ (rd.ArrAt w n) else rd.ArrAt w n :=
        rd.ArrAt_succ w ⟨n, hn⟩
      rw [hs] at hG
      by_cases hfn : (cfg.win w).flush ⟨n, hn⟩ = true
      · rw [if_pos hfn] at hG
        obtain ⟨G₀, X, hG₀, hX, rfl⟩ := hG
        by_cases hn0 : n₀ ≤ n
        · rw [hT ⟨n, hn⟩ hn0 hfn X hX, View.write_read_eq_piecewise]
          by_cases hin : i ∈ ((cfg.win w).blk ⟨n, hn⟩).view.setOn Finset.univ
          · rw [Finset.piecewise_eq_of_mem _ _ _ hin]
          · rw [Finset.piecewise_eq_of_notMem _ _ _ hin]
            have htn : t.val ≠ n := fun e => hin (by
              rw [View.setOn_univ]; have : t = ⟨n, hn⟩ := Fin.ext e; exact this ▸ hi)
            exact ih G₀ hG₀ t i h0 (by omega) hf hi
        · exact absurd ht (by omega)
      · rw [if_neg hfn] at hG
        have htn : t.val ≠ n := fun e => hfn (by have : t = ⟨n, hn⟩ := Fin.ext e; exact this ▸ hf)
        exact ih G hG t i h0 (by omega) hf hi
    · rw [rd.ArrAt_stable w (n + 1) (by omega), ← rd.ArrAt_stable w n (by omega)] at hG
      exact ih G hG t i h0 (by have := t.isLt; omega) hf hi

/-- So, when those late blocks cover the array, it ends holding T. -/
theorem RDat.arrAt_eq_of_late_cover (w : Fin cfg.W) (T : Buf Val ((cfg.win w).arr.view.loc (c.tc : Thread nD τ))) (n₀ : ℕ)
    (hT : ∀ u : Fin cfg.N, n₀ ≤ u.val → (cfg.win w).flush u = true → ∀ X, rd.Leaves w u X →
      (cfg.win w).cut (cfg.grid.coords u) X = ((cfg.win w).blk u).view.read Val T)
    (hcover : ∀ i : ((cfg.win w).arr.view.loc (c.tc : Thread nD τ)).2.ty.Idx,
      ∃ t : Fin cfg.N, n₀ ≤ t.val ∧ (cfg.win w).flush t = true ∧ i ∈ ((cfg.win w).blk t).view.set)
    (G : Buf Val ((cfg.win w).arr.view.loc (c.tc : Thread nD τ))) (hG : rd.ArrAt w cfg.N G) : G = T :=
  funext fun i => by
    obtain ⟨t, h0, hf, hi⟩ := hcover i
    exact rd.arrAt_apply_of_late w T n₀ hT cfg.N G hG t i h0 t.isLt hf hi

end Idealize.ShloMosaic.Pipeline

end
-- ==== Proof.ValFinal.lean ====
/-
  The output array after the run. Every block of four hundred output rows is written back last during the second sweep,
  where it holds the reference's result on those rows: the first scratch is the reference's first product, the second
  scratch — filled block by block during the first sweep — the reference's second product, and the sweep's blocks
  cover the array. What the first sweep's write-backs left in the output array is overwritten.
-/
import proofs.«133281_g11046655885806_week1_w3_820_16_alg».proof.Proof.IBody
import proofs.«133281_g11046655885806_week1_w3_820_16_alg».proof.Proof.ValBlocks
import proofs.«133281_g11046655885806_week1_w3_820_16_alg».proof.Proof.ValCore
import proofs.«133281_g11046655885806_week1_w3_820_16_alg».proof.Proof.LibArrAtLate

set_option maxRecDepth 16384

noncomputable section

namespace Cert.KernelIdeal.Val

open Idealize.ShloMosaic Idealize.ShloMosaic.TcCoe Idealize.ShloMosaic.ValueIdx Idealize.SL.Sem
open Idealize.ShloMosaic.Pipeline (RDat)
open Cert.KernelIdeal Cert.KernelIdeal.Gen Cert.KernelIdeal.Body
open Cert.ReferenceIdeal.Read

variable (m : (ℓ : Loc nD τ sig) → Buf (Elt Ideal) ℓ) (ρ : Dev nD → PrngReg)

/-- The reference's result of the kernel's argument arrays. -/
def Tgt (c : Dev nD) : Vec Ideal S10000x16 .f32 :=
  val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem rowBlock_lt {n : ℕ} (h : n < 25) : rowBlock n = n := if_pos h

/-- The first scratch holds the reference's first product. -/
theorem S1_eq (c : Dev nD) : S1 m c = val_main_v0 (F := Ideal) (m ((c.tc : Thread nD τ).loc main_arg0)) (m ((c.tc : Thread nD τ).loc main_arg2)) := by
  unfold S1
  rw [pay1_eq (iblk m c 0 t0) (iblk m c 2 t0)]
  exact congrArg₂ (val_main_v0 (F := Ideal))
    (funext fun y => (blk0_apply m c t0 y).trans (congrFun (V_main_arg0 m c) y))
    (funext fun y => (blk2_apply m c t0 y).trans (congrFun (V_main_arg2 m c) y))

/-- A block of the first sweep is the corresponding rows of the reference's second product. -/
theorem H2_eq (c : Dev nD) (u : Fin cfg0.N) (hu : u.val < 25) (x : S400x16.Idx) (y : S10000x16.Idx)
    (hy0 : (y (0 : Fin 2)).val = 400 * u.val + (x (0 : Fin 2)).val) (hy1 : (y (1 : Fin 2)).val = (x (1 : Fin 2)).val) :
    H2blk m c u x = val_main_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) y := by
  unfold H2blk
  rw [S1_eq]
  exact H2_core (iblk m c 1 u) (iblk m c 3 u) (iblk m c 4 u) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) u.val x y hy0 hy1
    (fun p i h0 h1 => (blk1_apply m c u p i (by rw [rowBlock_lt hu]; exact h0) h1).trans (congrFun (V_main_arg1 m c) i))
    (fun p k hk => (blk3_apply m c u p).trans (V_b1 m c p k hk))
    (fun p => (blk4_apply m c u p).trans (congrFun (V_main_arg4 m c) p))

/-- After the first sweep the second scratch holds the reference's second product. -/
theorem S2_full (c : Dev nD) (S : Vec Ideal S10000x16 .f32) (hS : S2ok m c 25 S) (q : S10000x16.Idx) :
    S q = val_main_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) q := by
  have hq : (q (0 : Fin 2)).val < 10000 := (q (0 : Fin 2)).isLt
  have hu : (q (0 : Fin 2)).val / 400 < cfg0.N := by rw [show cfg0.N = 50 from N_0]; omega
  have h0 : (q (0 : Fin 2)).val = 400 * ((q (0 : Fin 2)).val / 400) + (q (0 : Fin 2)).val % 400 := (Nat.div_add_mod _ 400).symm
  have e := hS ⟨(q (0 : Fin 2)).val / 400, hu⟩ (by show (q (0 : Fin 2)).val / 400 < 25; omega) (by show (q (0 : Fin 2)).val / 400 < 25; omega) q
    (fun a => match a with | ⟨0, _⟩ => ⟨(q (0 : Fin 2)).val % 400, Nat.mod_lt _ (by decide)⟩ | ⟨1, _⟩ => ⟨(q (1 : Fin 2)).val, (q (1 : Fin 2)).isLt⟩) h0 rfl
  rw [e]
  exact H2_eq m c ⟨(q (0 : Fin 2)).val / 400, hu⟩ (by show (q (0 : Fin 2)).val / 400 < 25; omega) _ q h0 rfl

/-- What a point of the second sweep writes back is its block of the reference's result. -/
theorem leaves_late (c : Dev nD) (u : Fin cfg0.N) (hu : 25 ≤ u.val) (X : (cfg0.win 6).block.Idx → Elt Ideal (cfg0.win 6).elt)
    (hX : (rdat m c).Leaves 6 u X) :
    (cfg0.win 6).cut (cfg0.grid.coords u) X = ((cfg0.win 6).blk u).view.read (Elt Ideal) (Tgt m c) := by
  obtain ⟨Y, -, hrel⟩ := hX
  obtain ⟨S, hS, rfl⟩ := (show OutRel m c u X from hrel) hu
  funext y
  show k0_pay3 (F := Ideal) (iblk m c 1 u) S (iblk m c 5 u) y = Tgt m c (((cfg0.win 6).blk u).view.emb y)
  have h6 := index6_eq u
  have q0 : win0_6.index u (0 : Fin 2) = rowBlock u.val := congrFun h6 0
  have q1 : win0_6.index u (1 : Fin 2) = 0 := congrFun h6 1
  refine Out_core (iblk m c 1 u) S (iblk m c 5 u) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (rowBlock u.val) y _ ?_ ?_
    (fun p i h0 h1 => (blk1_apply m c u p i h0 h1).trans (congrFun (V_main_arg1 m c) i))
    (S2_full m c S hS)
    (fun p k hk => (blk5_apply m c u p).trans (V_b2 m c p k hk))
  · show win0_6.index u (0 : Fin 2) * 400 + 1 * (y 0).val = 400 * rowBlock u.val + (y 0).val; omega
  · show win0_6.index u (1 : Fin 2) * 16 + 1 * (y 1).val = (y 1).val; omega

/-- Every point of the second sweep writes its block back. -/
theorem flush_late : ∀ t : Fin cfg0.N, 25 ≤ t.val → (cfg0.win 6).flush t = true :=
  (by decide +kernel : ∀ t : Fin grid0.N, 25 ≤ t.val → win0_6.flush t = true)

/-- Every block of output rows is some point's of the second sweep. -/
theorem onto_late : ∀ q : Fin 25, ∃ t : Fin cfg0.N, 25 ≤ t.val ∧ win0_6.index t = ![q.val, 0] :=
  (by decide +kernel : ∀ q : Fin 25, ∃ t : Fin grid0.N, 25 ≤ t.val ∧ win0_6.index t = ![q.val, 0])

/-- An entry of the output array is in a point's block iff its row is among the block's four hundred. -/
theorem mem_blk6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0).slice (win0_6.rect t)).set ↔ _
  rw [View.set_slice_whole, Rect.mem_set_unit]
  exact Iff.rfl

/-- The second sweep's blocks cover the output array. -/
theorem cover_late (i : S10000x16.Idx) :
    ∃ t : Fin cfg0.N, 25 ≤ t.val ∧ (cfg0.win 6).flush t = true ∧ i ∈ ((cfg0.win 6).blk t).view.set := by
  have hi0 : (i (0 : Fin 2)).val < 10000 := (i (0 : Fin 2)).isLt
  have hi1 : (i (1 : Fin 2)).val < 16 := (i (1 : Fin 2)).isLt
  obtain ⟨t, ht, hidx⟩ := onto_late ⟨(i (0 : Fin 2)).val / 400, by omega⟩
  refine ⟨t, ht, flush_late t ht, ?_⟩
  rw [mem_blk6]
  have q0 : win0_6.index t (0 : Fin 2) = (i (0 : Fin 2)).val / 400 := congrFun hidx 0
  have q1 : win0_6.index t (1 : Fin 2) = 0 := congrFun hidx 1
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 16 ≤ (i 1).val ∧ (i 1).val < win0_6.index t (1 : Fin 2) * 16 + 16; omega

/-- THE OUTPUT ARRAY after the run is the reference's result of the argument arrays. -/
theorem final_out (c : Dev nD) (G : Buf (Elt Ideal) ((cfg0.win 6).arr.view.loc (c.tc : Thread nD τ)))
    (hG : (rdat m c).ArrAt 6 cfg0.N G) : G = Tgt m c :=
  (rdat m c).arrAt_eq_of_late_cover 6 (Tgt m c) 25 (fun u hu _ X hX => leaves_late m c u hu X hX) cover_late G hG

/-- The run, read: the result array at the reference's result, the argument arrays unchanged. -/
theorem run : θ_run defs (onTc (τ := τ) (main (F := Ideal))) ⟨m, fun _ => 0, ρ⟩ (fun r => ∀ c : Dev nD,
      r.2.mem ((c.tc : Thread nD τ).loc main_v0) = Tgt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final_out m c _ ((h c).1 6),
      (arr_in m c 0 rfl _ ((h c).1 0)).trans (V_main_arg0 m c),
      (arr_in m c 1 rfl _ ((h c).1 1)).trans (V_main_arg1 m c),
      (arr_in m c 2 rfl _ ((h c).1 2)).trans (V_main_arg2 m c),
      ((h c).2 main_arg3 (Pipeline.mem_restRefs_of main_arg3 (by decide) (by decide))).trans (V_main_arg3 m c),
      (arr_in m c 4 rfl _ ((h c).1 4)).trans (V_main_arg4 m c),
      ((h c).2 main_arg5 (Pipeline.mem_restRefs_of main_arg5 (by decide) (by decide))).trans (V_main_arg5 m c)⟩) (run_main m ρ)

end Cert.KernelIdeal.Val

end
-- ==== Proof.lean ====
/-
  A two-layer graph convolution, out = relu(adj · (relu(adj · (x · W1) + b1) · W2) + b2), computed by one pipelined
  kernel in two sweeps over blocks of four hundred rows of the adjacency: the first sweep fills a scratch with the
  projected hidden layer block by block (the first projection x · W1 computed once, at the first point), the second
  sweep reads it whole and stores each block of output rows. The reference computes the same four matrix products on
  the whole arrays.

  Over the extended reals the two agree entry by entry, and no algebraic law is needed beyond reading each product as a
  sum: a row of a block of the adjacency is a row of the adjacency, so each block of the kernel's products is the
  corresponding rows of the reference's. The precondition (finite inputs) is not used.

  The frames: at every grid point the body runs by the kind of the point; the scratch contents are carried between
  points as an invariant; during the first sweep the output's staging buffer is written back as found, so the proof data
  constrain what the body leaves there only during the second sweep, whose write-backs come last and cover the array.
-/
import proofs.«133281_g11046655885806_week1_w3_820_16_alg».proof.Defs
import proofs.«133281_g11046655885806_week1_w3_820_16_alg».proof.Proof.Gen.Kernel
import proofs.«133281_g11046655885806_week1_w3_820_16_alg».proof.Proof.Gen.KernelIdeal
import proofs.«133281_g11046655885806_week1_w3_820_16_alg».proof.Proof.Gen.ReferenceIdeal
import proofs.«133281_g11046655885806_week1_w3_820_16_alg».proof.Proof.Gen.Pre_finite_inputs
import proofs.«133281_g11046655885806_week1_w3_820_16_alg».proof.Proof.Gen.ReferenceIdeal.Run
import proofs.«133281_g11046655885806_week1_w3_820_16_alg».proof.Proof.Gen.ReferenceIdeal.Read
import proofs.«133281_g11046655885806_week1_w3_820_16_alg».proof.Proof.BBody
import proofs.«133281_g11046655885806_week1_w3_820_16_alg».proof.Proof.IBody
import proofs.«133281_g11046655885806_week1_w3_820_16_alg».proof.Proof.ValFinal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does the kernel over the extended reals. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference is a straight line of host operations. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's result of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.Tgt m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
